-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S10x50 : S_.BroadcastsInDim S10x50 (![] : Fin 0 → Fin S10x50.rank)
  reducesTo_S10x50_S_d0_1 : S10x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x1 : S_.BroadcastsInDim S50x1 (![] : Fin 0 → Fin S50x1.rank)
  reducesTo_S50x1_S_d0_1 : S50x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S50 .f32) (main_arg6 : FVec F S50x1 .f32) (main_arg7 : FVec F S1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x1 .f32 := Host.absf main_arg6
  let main_cst_8 : FVec F S_ .f32 := constant S_ .f32 0x7F800000#32
  let main_v25 : FVec F S50x1 .f32 := broadcastInDim S50x1 ![] bcast_S_S50x1 main_cst_8
  let main_v26 : IVec S50x1 1 := cmpf .olt main_v24 main_v25
  let main_c_9 : IVec S_ 1 := constantI S_ 1 1#1
  let main_v27 : IVec S_ 1 := (fun x v => Host.reduce IntOp.andi x v reducesTo_S50x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x5 .f32) (main_arg1 : IVec S2x3200000 32) (main_arg2 : FVec F S10x50 .f32) (main_arg3 : FVec F S50 .f32) (main_arg4 : FVec F S50x50 .f32) (main_arg5 : FVec F S50 .f32) (main_arg6 : FVec F S50x1 .f32) (main_arg7 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S10x50 .f32 := Host.absf main_arg2
  let main_cst_0 : FVec F S_ .f32 := constant S_ .f32 0x7F800000#32
  let main_v5 : FVec F S10x50 .f32 := broadcastInDim S10x50 ![] bcast_S_S10x50 main_cst_0
  let main_v6 : IVec S10x50 1 := cmpf .olt main_v4 main_v5
  let main_c_1 : IVec S_ 1 := constantI S_ 1 1#1
  let main_v7 : IVec S_ 1 := (fun x v => Host.reduce IntOp.andi x v reducesTo_S10x50_S_d0_1 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg4
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg5 main_arg6 main_arg7 main_v13 main_v16
-- ==== Kernel.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x5 : Shape := ⟨2, ![3200000, 5]⟩
abbrev S3200000x10 : Shape := ⟨2, ![3200000, 10]⟩
abbrev S640000x50 : Shape := ⟨2, ![640000, 50]⟩
abbrev S5x5 : Shape := ⟨2, ![5, 5]⟩
abbrev S5x1x5x1 : Shape := ⟨4, ![5, 1, 5, 1]⟩
abbrev S1x10x1x50 : Shape := ⟨4, ![1, 10, 1, 50]⟩
abbrev S5x10x5x50 : Shape := ⟨4, ![5, 10, 5, 50]⟩
abbrev S50x250 : Shape := ⟨2, ![50, 250]⟩
abbrev S1x50x1x50 : Shape := ⟨4, ![1, 50, 1, 50]⟩
abbrev S5x50x5x50 : Shape := ⟨4, ![5, 50, 5, 50]⟩
abbrev S250x250 : Shape := ⟨2, ![250, 250]⟩
abbrev S1x50x1x1 : Shape := ⟨4, ![1, 50, 1, 1]⟩
abbrev S5x50x5x1 : Shape := ⟨4, ![5, 50, 5, 1]⟩
abbrev S250x5 : Shape := ⟨2, ![250, 5]⟩
abbrev S1x50 : Shape := ⟨2, ![1, 50]⟩
abbrev S5x50 : Shape := ⟨2, ![5, 50]⟩
abbrev S250 : Shape := ⟨1, ![250]⟩
abbrev S1x250 : Shape := ⟨2, ![1, 250]⟩
abbrev S1x1 : Shape := ⟨2, ![1, 1]⟩
abbrev S5x1 : Shape := ⟨2, ![5, 1]⟩
abbrev S5 : Shape := ⟨1, ![5]⟩
abbrev S1x5 : Shape := ⟨2, ![1, 5]⟩
abbrev S640000x5 : Shape := ⟨2, ![640000, 5]⟩
abbrev S2560x50 : Shape := ⟨2, ![2560, 50]⟩
abbrev S2560x5 : Shape := ⟨2, ![2560, 5]⟩
abbrev S2560x250 : Shape := ⟨2, ![2560, 250]⟩

abbrev nBuf : Space → Nat
  | .hbm => 86
  | .vmem => 10
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S10x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x5, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x5, .f32⟩
  | .hbm, ⟨30, _⟩ => ⟨S3200000x10, .f32⟩
  | .hbm, ⟨31, _⟩ => ⟨S3200000x10, .bf16⟩
  | .hbm, ⟨32, _⟩ => ⟨S640000x50, .bf16⟩
  | .hbm, ⟨33, _⟩ => ⟨S5x5, .i32⟩
  | .hbm, ⟨34, _⟩ => ⟨S5x5, .i32⟩
  | .hbm, ⟨35, _⟩ => ⟨S_, .i32⟩
  | .hbm, ⟨36, _⟩ => ⟨S5x5, .i32⟩
  | .hbm, ⟨37, _⟩ => ⟨S5x5, .i32⟩
  | .hbm, ⟨38, _⟩ => ⟨S5x5, .i1⟩
  | .hbm, ⟨39, _⟩ => ⟨S5x5, .f32⟩
  | .hbm, ⟨40, _⟩ => ⟨S5x1x5x1, .f32⟩
  | .hbm, ⟨41, _⟩ => ⟨S1x10x1x50, .f32⟩
  | .hbm, ⟨42, _⟩ => ⟨S5x10x5x50, .f32⟩
  | .hbm, ⟨43, _⟩ => ⟨S5x10x5x50, .f32⟩
  | .hbm, ⟨44, _⟩ => ⟨S5x10x5x50, .f32⟩
  | .hbm, ⟨45, _⟩ => ⟨S50x250, .f32⟩
  | .hbm, ⟨46, _⟩ => ⟨S5x5, .i32⟩
  | .hbm, ⟨47, _⟩ => ⟨S5x5, .i32⟩
  | .hbm, ⟨48, _⟩ => ⟨S_, .i32⟩
  | .hbm, ⟨49, _⟩ => ⟨S5x5, .i32⟩
  | .hbm, ⟨50, _⟩ => ⟨S5x5, .i32⟩
  | .hbm, ⟨51, _⟩ => ⟨S5x5, .i1⟩
  | .hbm, ⟨52, _⟩ => ⟨S5x5, .f32⟩
  | .hbm, ⟨53, _⟩ => ⟨S5x1x5x1, .f32⟩
  | .hbm, ⟨54, _⟩ => ⟨S1x50x1x50, .f32⟩
  | .hbm, ⟨55, _⟩ => ⟨S5x50x5x50, .f32⟩
  | .hbm, ⟨56, _⟩ => ⟨S5x50x5x50, .f32⟩
  | .hbm, ⟨57, _⟩ => ⟨S5x50x5x50, .f32⟩
  | .hbm, ⟨58, _⟩ => ⟨S250x250, .f32⟩
  | .hbm, ⟨59, _⟩ => ⟨S5x5, .i32⟩
  | .hbm, ⟨60, _⟩ => ⟨S5x5, .i32⟩
  | .hbm, ⟨61, _⟩ => ⟨S_, .i32⟩
  | .hbm, ⟨62, _⟩ => ⟨S5x5, .i32⟩
  | .hbm, ⟨63, _⟩ => ⟨S5x5, .i32⟩
  | .hbm, ⟨64, _⟩ => ⟨S5x5, .i1⟩
  | .hbm, ⟨65, _⟩ => ⟨S5x5, .f32⟩
  | .hbm, ⟨66, _⟩ => ⟨S5x1x5x1, .f32⟩
  | .hbm, ⟨67, _⟩ => ⟨S1x50x1x1, .f32⟩
  | .hbm, ⟨68, _⟩ => ⟨S5x50x5x1, .f32⟩
  | .hbm, ⟨69, _⟩ => ⟨S5x50x5x1, .f32⟩
  | .hbm, ⟨70, _⟩ => ⟨S5x50x5x1, .f32⟩
  | .hbm, ⟨71, _⟩ => ⟨S250x5, .f32⟩
  | .hbm, ⟨72, _⟩ => ⟨S1x50, .f32⟩
  | .hbm, ⟨73, _⟩ => ⟨S5x50, .f32⟩
  | .hbm, ⟨74, _⟩ => ⟨S250, .f32⟩
  | .hbm, ⟨75, _⟩ => ⟨S1x250, .f32⟩
  | .hbm, ⟨76, _⟩ => ⟨S1x50, .f32⟩
  | .hbm, ⟨77, _⟩ => ⟨S5x50, .f32⟩
  | .hbm, ⟨78, _⟩ => ⟨S250, .f32⟩
  | .hbm, ⟨79, _⟩ => ⟨S1x250, .f32⟩
  | .hbm, ⟨80, _⟩ => ⟨S1x1, .f32⟩
  | .hbm, ⟨81, _⟩ => ⟨S5x1, .f32⟩
  | .hbm, ⟨82, _⟩ => ⟨S5, .f32⟩
  | .hbm, ⟨83, _⟩ => ⟨S1x5, .f32⟩
  | .hbm, ⟨84, _⟩ => ⟨S640000x5, .f32⟩
  | .hbm, ⟨85, _⟩ => ⟨S3200000x1, .f32⟩
  | .local _ .vmem, ⟨0, _⟩ => ⟨S2560x50, .bf16⟩
  | .local _ .vmem, ⟨1, _⟩ => ⟨S2560x50, .bf16⟩
  | .local _ .vmem, ⟨2, _⟩ => ⟨S50x250, .f32⟩
  | .local _ .vmem, ⟨3, _⟩ => ⟨S1x250, .f32⟩
  | .local _ .vmem, ⟨4, _⟩ => ⟨S250x250, .f32⟩
  | .local _ .vmem, ⟨5, _⟩ => ⟨S1x250, .f32⟩
  | .local _ .vmem, ⟨6, _⟩ => ⟨S250x5, .f32⟩
  | .local _ .vmem, ⟨7, _⟩ => ⟨S1x5, .f32⟩
  | .local _ .vmem, ⟨8, _⟩ => ⟨S2560x5, .f32⟩
  | .local _ .vmem, ⟨9, _⟩ => ⟨S2560x5, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x50 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x250 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x250 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S250x250 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x250 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S250x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2560x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x5_S3200000x5_S3200000x10_d1 : Shape.Concatenates [S3200000x5, S3200000x5] S3200000x10 1
  bitsLt_bf16_f32 : FTy.bits .bf16 < FTy.bits .f32
  shapeCasts_S3200000x10_S640000x50 : S3200000x10.ShapeCasts S640000x50
  bcast_S_S5x5 : S_.BroadcastsInDim S5x5 (![] : Fin 0 → Fin S5x5.rank)
  bcast_S5x5_S5x1x5x1_0_2 : S5x5.BroadcastsInDim S5x1x5x1 (![0, 2] : Fin 2 → Fin S5x1x5x1.rank)
  bcast_S10x50_S1x10x1x50_1_3 : S10x50.BroadcastsInDim S1x10x1x50 (![1, 3] : Fin 2 → Fin S1x10x1x50.rank)
  bcast_S5x1x5x1_S5x10x5x50_0_1_2_3 : S5x1x5x1.BroadcastsInDim S5x10x5x50 (![0, 1, 2, 3] : Fin 4 → Fin S5x10x5x50.rank)
  bcast_S1x10x1x50_S5x10x5x50_0_1_2_3 : S1x10x1x50.BroadcastsInDim S5x10x5x50 (![0, 1, 2, 3] : Fin 4 → Fin S5x10x5x50.rank)
  shapeCasts_S5x10x5x50_S50x250 : S5x10x5x50.ShapeCasts S50x250
  bcast_S50x50_S1x50x1x50_1_3 : S50x50.BroadcastsInDim S1x50x1x50 (![1, 3] : Fin 2 → Fin S1x50x1x50.rank)
  bcast_S5x1x5x1_S5x50x5x50_0_1_2_3 : S5x1x5x1.BroadcastsInDim S5x50x5x50 (![0, 1, 2, 3] : Fin 4 → Fin S5x50x5x50.rank)
  bcast_S1x50x1x50_S5x50x5x50_0_1_2_3 : S1x50x1x50.BroadcastsInDim S5x50x5x50 (![0, 1, 2, 3] : Fin 4 → Fin S5x50x5x50.rank)
  shapeCasts_S5x50x5x50_S250x250 : S5x50x5x50.ShapeCasts S250x250
  bcast_S50x1_S1x50x1x1_1_3 : S50x1.BroadcastsInDim S1x50x1x1 (![1, 3] : Fin 2 → Fin S1x50x1x1.rank)
  bcast_S5x1x5x1_S5x50x5x1_0_1_2_3 : S5x1x5x1.BroadcastsInDim S5x50x5x1 (![0, 1, 2, 3] : Fin 4 → Fin S5x50x5x1.rank)
  bcast_S1x50x1x1_S5x50x5x1_0_1_2_3 : S1x50x1x1.BroadcastsInDim S5x50x5x1 (![0, 1, 2, 3] : Fin 4 → Fin S5x50x5x1.rank)
  shapeCasts_S5x50x5x1_S250x5 : S5x50x5x1.ShapeCasts S250x5
  shapeCasts_S50_S1x50 : S50.ShapeCasts S1x50
  bcast_S1x50_S5x50_0_1 : S1x50.BroadcastsInDim S5x50 (![0, 1] : Fin 2 → Fin S5x50.rank)
  shapeCasts_S5x50_S250 : S5x50.ShapeCasts S250
  shapeCasts_S250_S1x250 : S250.ShapeCasts S1x250
  shapeCasts_S1_S1x1 : S1.ShapeCasts S1x1
  bcast_S1x1_S5x1_0_1 : S1x1.BroadcastsInDim S5x1 (![0, 1] : Fin 2 → Fin S5x1.rank)
  shapeCasts_S5x1_S5 : S5x1.ShapeCasts S5
  shapeCasts_S5_S1x5 : S5.ShapeCasts S1x5
  inb_S2560x50_S2560x50_0_0 : ∀ a, (![0, 0] : Fin 2 → Nat) a + S2560x50.size a ≤ S2560x50.size a
  h_S2560x50 : 0 < S2560x50.numel
  shapeCasts_S2560x50_S2560x50 : S2560x50.ShapeCasts S2560x50
  inb_S50x250_S50x250_0_0 : ∀ a, (![0, 0] : Fin 2 → Nat) a + S50x250.size a ≤ S50x250.size a
  h_S50x250 : 0 < S50x250.numel
  shapeCasts_S50x250_S50x250 : S50x250.ShapeCasts S50x250
  inb_S1x250_S1x250_0_0 : ∀ a, (![0, 0] : Fin 2 → Nat) a + S1x250.size a ≤ S1x250.size a
  h_S1x250 : 0 < S1x250.numel
  shapeCasts_S1x250_S1x250 : S1x250.ShapeCasts S1x250
  broadcasts_S1x250_S2560x250 : S1x250.Broadcasts S2560x250
  inb_S250x250_S250x250_0_0 : ∀ a, (![0, 0] : Fin 2 → Nat) a + S250x250.size a ≤ S250x250.size a
  h_S250x250 : 0 < S250x250.numel
  shapeCasts_S250x250_S250x250 : S250x250.ShapeCasts S250x250
  inb_S250x5_S250x5_0_0 : ∀ a, (![0, 0] : Fin 2 → Nat) a + S250x5.size a ≤ S250x5.size a
  h_S250x5 : 0 < S250x5.numel
  shapeCasts_S250x5_S250x5 : S250x5.ShapeCasts S250x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2560x5 : S1x5.Broadcasts S2560x5
  inb_S2560x5_S2560x5_0_0 : ∀ a, (![0, 0] : Fin 2 → Nat) a + S2560x5.size a ≤ S2560x5.size a
  h_S2560x5 : 0 < S2560x5.numel
  shapeCasts_S640000x5_S3200000x1 : S640000x5.ShapeCasts S3200000x1
  gather_S100000x5_S3200000x1_S3200000x5_1_0_n_n_0_1_15_wf : GatherDims.WF S100000x5 S3200000x1 S3200000x5 [1] [0] [] [0] [] 1 ![1, 5]
  dot_S2560x50_S50x250_S2560x250_1_0_0_1_n_n_wf : DotDims.WF S2560x50 S50x250 S2560x250 [1] [0] [0] [1] [] []
  dot_S2560x250_S250x250_S2560x250_1_0_0_1_n_n_wf : DotDims.WF S2560x250 S250x250 S2560x250 [1] [0] [0] [1] [] []
  dot_S2560x250_S250x5_S2560x5_1_0_0_1_n_n_wf : DotDims.WF S2560x250 S250x5 S2560x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x50.size a ≤ S640000x50.size a
  hwx0_0 : ∀ i : grid0.Coords, EltTy.bits .bf16 = 32 ∨ (Rect.block (s := S640000x50) S2560x50.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x250.size a ≤ S50x250.size a
  hwx0_1 : ∀ i : grid0.Coords, EltTy.bits .f32 = 32 ∨ (Rect.block (s := S50x250) S50x250.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x250.size a ≤ S1x250.size a
  hwx0_2 : ∀ i : grid0.Coords, EltTy.bits .f32 = 32 ∨ (Rect.block (s := S1x250) S1x250.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S250x250.size a ≤ S250x250.size a
  hwx0_3 : ∀ i : grid0.Coords, EltTy.bits .f32 = 32 ∨ (Rect.block (s := S250x250) S250x250.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x250.size a ≤ S1x250.size a
  hwx0_4 : ∀ i : grid0.Coords, EltTy.bits .f32 = 32 ∨ (Rect.block (s := S1x250) S1x250.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S250x5.size a ≤ S250x5.size a
  hwx0_5 : ∀ i : grid0.Coords, EltTy.bits .f32 = 32 ∨ (Rect.block (s := S250x5) S250x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2560x5.size a ≤ S640000x5.size a
  hwx0_7 : ∀ i : grid0.Coords, EltTy.bits .f32 = 32 ∨ (Rect.block (s := S640000x5) S2560x5.size (cc0_transform_7 i) (hinb0_7 i)).WholeWords (EltTy.packing .f32)

variable [Facts₀]

def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S2560x50_S50x250_S2560x250_1_0_0_1_n_n : DotDims S2560x50 S50x250 S2560x250 where
  lhsContracting := [1]
  rhsContracting := [0]
  lhsNonContracting := [0]
  rhsNonContracting := [1]
  lhsBatch := []
  rhsBatch := []
  wf := dot_S2560x50_S50x250_S2560x250_1_0_0_1_n_n_wf
def dot_S2560x250_S250x250_S2560x250_1_0_0_1_n_n : DotDims S2560x250 S250x250 S2560x250 where
  lhsContracting := [1]
  rhsContracting := [0]
  lhsNonContracting := [0]
  rhsNonContracting := [1]
  lhsBatch := []
  rhsBatch := []
  wf := dot_S2560x250_S250x250_S2560x250_1_0_0_1_n_n_wf
def dot_S2560x250_S250x5_S2560x5_1_0_0_1_n_n : DotDims S2560x250 S250x5 S2560x5 where
  lhsContracting := [1]
  rhsContracting := [0]
  lhsNonContracting := [0]
  rhsNonContracting := [1]
  lhsBatch := []
  rhsBatch := []
  wf := dot_S2560x250_S250x5_S2560x5_1_0_0_1_n_n_wf

abbrev win0_0 : Pipeline.Window sig grid0 :=
  Pipeline.Window.ofSpec (Memref.whole main_v20) S2560x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S50x250.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x250.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S250x250.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x250.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S250x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S2560x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S10x50 : Shape := ⟨2, ![10, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x5 : Shape := ⟨2, ![3200000, 5]⟩
abbrev S3200000x10 : Shape := ⟨2, ![3200000, 10]⟩
abbrev S3200000x50 : Shape := ⟨2, ![3200000, 50]⟩
abbrev S1x50 : Shape := ⟨2, ![1, 50]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S10x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x5, .f32⟩
  | .hbm, ⟨19, _⟩ => ⟨S1x3200000, .i32⟩
  | .hbm, ⟨20, _⟩ => ⟨S3200000, .i32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x5, .f32⟩
  | .hbm, ⟨30, _⟩ => ⟨S3200000x10, .f32⟩
  | .hbm, ⟨31, _⟩ => ⟨S3200000x50, .f32⟩
  | .hbm, ⟨32, _⟩ => ⟨S1x50, .f32⟩
  | .hbm, ⟨33, _⟩ => ⟨S3200000x50, .f32⟩
  | .hbm, ⟨34, _⟩ => ⟨S3200000x50, .f32⟩
  | .hbm, ⟨35, _⟩ => ⟨S_, .f32⟩
  | .hbm, ⟨36, _⟩ => ⟨S3200000x50, .f32⟩
  | .hbm, ⟨37, _⟩ => ⟨S3200000x50, .f32⟩
  | .hbm, ⟨38, _⟩ => ⟨S3200000x50, .f32⟩
  | .hbm, ⟨39, _⟩ => ⟨S1x50, .f32⟩
  | .hbm, ⟨40, _⟩ => ⟨S3200000x50, .f32⟩
  | .hbm, ⟨41, _⟩ => ⟨S3200000x50, .f32⟩
  | .hbm, ⟨42, _⟩ => ⟨S_, .f32⟩
  | .hbm, ⟨43, _⟩ => ⟨S3200000x50, .f32⟩
  | .hbm, ⟨44, _⟩ => ⟨S3200000x50, .f32⟩
  | .hbm, ⟨45, _⟩ => ⟨S3200000x1, .f32⟩
  | .hbm, ⟨46, _⟩ => ⟨S1x1, .f32⟩
  | .hbm, ⟨47, _⟩ => ⟨S3200000x1, .f32⟩
  | .hbm, ⟨48, _⟩ => ⟨S3200000x1, .f32⟩
  | .hbm, ⟨49, _⟩ => ⟨S3200000x1, .f32⟩
  | .hbm, ⟨50, _⟩ => ⟨S3200000x1, .f32⟩
  | .hbm, ⟨51, _⟩ => ⟨S_, .f32⟩
  | .hbm, ⟨52, _⟩ => ⟨S3200000x1, .f32⟩
  | .hbm, ⟨53, _⟩ => ⟨S3200000x1, .f32⟩
  | .hbm, ⟨54, _⟩ => ⟨S_, .f32⟩
  | .hbm, ⟨55, _⟩ => ⟨S3200000x1, .f32⟩
  | .hbm, ⟨56, _⟩ => ⟨S3200000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x5_S3200000x5_S3200000x10_d1 : Shape.Concatenates [S3200000x5, S3200000x5] S3200000x10 1
  bcast_S50_S1x50_1 : S50.BroadcastsInDim S1x50 (![1] : Fin 1 → Fin S1x50.rank)
  bcast_S1x50_S3200000x50_0_1 : S1x50.BroadcastsInDim S3200000x50 (![0, 1] : Fin 2 → Fin S3200000x50.rank)
  bcast_S_S3200000x50 : S_.BroadcastsInDim S3200000x50 (![] : Fin 0 → Fin S3200000x50.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  gather_S100000x5_S3200000x1_S3200000x5_1_0_n_n_0_1_15_wf : GatherDims.WF S100000x5 S3200000x1 S3200000x5 [1] [0] [] [0] [] 1 ![1, 5]
  dot_S3200000x10_S10x50_S3200000x50_1_0_0_1_n_n_wf : DotDims.WF S3200000x10 S10x50 S3200000x50 [1] [0] [0] [1] [] []
  dot_S3200000x50_S50x50_S3200000x50_1_0_0_1_n_n_wf : DotDims.WF S3200000x50 S50x50 S3200000x50 [1] [0] [0] [1] [] []
  dot_S3200000x50_S50x1_S3200000x1_1_0_0_1_n_n_wf : DotDims.WF S3200000x50 S50x1 S3200000x1 [1] [0] [0] [1] [] []

variable [Facts₀]

def gather_S100000x5_S3200000x1_S3200000x5_1_0_n_n_0_1_15 : GatherDims S100000x5 S3200000x1 S3200000x5 where
  offsetDims := [1]
  collapsedSliceDims := [0]
  operandBatchingDims := []
  startIndicesBatchingDims := []
  startIndexMap := [0]
  indexVectorDim := 1
  sliceSizes := ![1, 5]
  wf := gather_S100000x5_S3200000x1_S3200000x5_1_0_n_n_0_1_15_wf
def dot_S3200000x10_S10x50_S3200000x50_1_0_0_1_n_n : DotDims S3200000x10 S10x50 S3200000x50 where
  lhsContracting := [1]
  rhsContracting := [0]
  lhsNonContracting := [0]
  rhsNonContracting := [1]
  lhsBatch := []
  rhsBatch := []
  wf := dot_S3200000x10_S10x50_S3200000x50_1_0_0_1_n_n_wf
def dot_S3200000x50_S50x50_S3200000x50_1_0_0_1_n_n : DotDims S3200000x50 S50x50 S3200000x50 where
  lhsContracting := [1]
  rhsContracting := [0]
  lhsNonContracting := [0]
  rhsNonContracting := [1]
  lhsBatch := []
  rhsBatch := []
  wf := dot_S3200000x50_S50x50_S3200000x50_1_0_0_1_n_n_wf
def dot_S3200000x50_S50x1_S3200000x1_1_0_0_1_n_n : DotDims S3200000x50 S50x1 S3200000x1 where
  lhsContracting := [1]
  rhsContracting := [0]
  lhsNonContracting := [0]
  rhsNonContracting := [1]
  lhsBatch := []
  rhsBatch := []
  wf := dot_S3200000x50_S50x1_S3200000x1_1_0_0_1_n_n_wf

class Facts : Prop extends Facts₀ where

variable [Facts]
-- ==== Proof.Spec.lean ====
/-
  The network computed for every edge, as one function of its arrays.

  An edge `e` carries a feature row `A[e, ·]` of ten numbers (the two endpoint rows of the node table side by side).
  Three dense layers follow: `h₁ = max(A·W₁ + b₁, 0)` (50 wide), `h₂ = max(h₁·W₂ + b₂, 0)` (50 wide) and the
  score `s = h₂·W₃ + b₃` (one number), and the edge's result is the logistic function `1 / (1 + exp(−s))`.
  Everything is read on the extended reals, where a sum of products is exact.
-/
import Idealize.ShloMosaic.PureOps.Ideal.Laws
import Idealize.ShloMosaic.Lib.ValueIdx

noncomputable section

namespace Cert.EdgeMlp

open Idealize.ShloMosaic Idealize.ShloMosaic.ValueIdx

/-- Row `e` of `X` against column `c` of `W`, plus entry `c` of the bias. -/
def dense {n K C : Nat} (X : (⟨2, ![n, K]⟩ : Shape).Idx → EReal) (W : (⟨2, ![K, C]⟩ : Shape).Idx → EReal)
    (b : (⟨1, ![C]⟩ : Shape).Idx → EReal) (e : Fin n) (c : Fin C) : EReal :=
  (∑ k : Fin K, X (ix2 e k) * W (ix2 k c)) + b (ix1 c)

/-- A dense layer followed by the positive part, as an array of `n` rows and `C` columns. -/
def hidden {n K C : Nat} (X : (⟨2, ![n, K]⟩ : Shape).Idx → EReal) (W : (⟨2, ![K, C]⟩ : Shape).Idx → EReal)
    (b : (⟨1, ![C]⟩ : Shape).Idx → EReal) : (⟨2, ![n, C]⟩ : Shape).Idx → EReal :=
  fun i => max (dense X W b (i 0) (i 1)) 0

/-- The result for edge `e`: the logistic function of the third layer's one score. -/
def edge (A : (⟨2, ![3200000, 10]⟩ : Shape).Idx → EReal)
    (W1 : (⟨2, ![10, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 1]⟩ : Shape).Idx → EReal) (b3 : (⟨1, ![1]⟩ : Shape).Idx → EReal)
    (e : Fin 3200000) : EReal :=
  Ideal.logistic (dense (hidden (hidden A W1 b1) W2 b2) W3 b3 e (0 : Fin 1))

/-- The whole result array, one row per edge and one column. -/
def result (A : (⟨2, ![3200000, 10]⟩ : Shape).Idx → EReal)
    (W1 : (⟨2, ![10, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 1]⟩ : Shape).Idx → EReal) (b3 : (⟨1, ![1]⟩ : Shape).Idx → EReal) :
    (⟨2, ![3200000, 1]⟩ : Shape).Idx → EReal :=
  fun i => edge A W1 b1 W2 b2 W3 b3 (i 0)

end Cert.EdgeMlp

end
-- ==== Proof.RefSide.lean ====
/-
  The reference program, read at the exact meaning of floats, computes the specification.

  The reference lays the two endpoint rows of every edge side by side into an array `A` of 3200000 rows and ten
  columns, and from there on is three dense layers: `h₁ = max(A·W₁ + b₁, 0)`, `h₂ = max(h₁·W₂ + b₂, 0)`, the score
  `s = h₂·W₃ + b₃`, and `1 / (1 + exp(−s))`. Each stage is read at one index: a product of matrices is the sum over
  the contracted coordinate, a bias is the vector entry of the column (the row coordinate of the broadcast is
  dropped), the constant compared against is the extended real `0`, and the constant in the quotient is `1`. The
  array `A` itself is never opened: everything below holds for whatever array stands in its place.
-/
import proofs.«129136_j10917806866765_2_alg».proof.Proof.Gen.ReferenceIdeal.Read
import proofs.«129136_j10917806866765_2_alg».proof.Proof.Spec
import Idealize.ShloMosaic.Lib.IdealHost
import Idealize.ShloMosaic.Lib.ValueIdx

noncomputable section

namespace Cert.EdgeMlp.RefSide

open Idealize.ShloMosaic Idealize.ShloMosaic.ValueIdx Cert.ReferenceIdeal Cert.ReferenceIdeal.Read

/-- The first layer: at row `e` and column `c` the reference's value is `max (∑ k, A[e,k]·W₁[k,c] + b₁[c]) 0`. -/
theorem layer1 (x0 : (⟨S100000x5, .f32⟩ : BufTy).Contents (Elt Ideal)) (x1 : (⟨S2x3200000, .i32⟩ : BufTy).Contents (Elt Ideal)) (x2 : (⟨S10x50, .f32⟩ : BufTy).Contents (Elt Ideal)) (x3 : (⟨S50, .f32⟩ : BufTy).Contents (Elt Ideal)) :
    val_main_v23 (F := Ideal) x0 x1 x2 x3 = Cert.EdgeMlp.hidden (val_main_v18 (F := Ideal) x0 x1) x2 x3 := by
  funext i
  rw [val_main_v23_apply, val_main_v22_apply, val_main_v19_apply, val_main_v21_apply, val_main_v20_apply,
    val_main_call0_v0_apply, val_main_call0_cst_apply]
  generalize val_main_v18 (F := Ideal) x0 x1 = A
  -- the contracted coordinate runs along A's row and W₁'s column; the bias is read at the column alone
  have hl : ∀ k : Fin 10, lidx_main_v19 i k = ix2 (i 0) k := fun k => funext fun a => by
    match a with
    | ⟨0, _⟩ => rfl
    | ⟨1, _⟩ => rfl
  have hr : ∀ k : Fin 10, ridx_main_v19 i k = ix2 k (i 1) := fun k => funext fun a => by
    match a with
    | ⟨0, _⟩ => rfl
    | ⟨1, _⟩ => rfl
  have hb : idx_main_v20 (idx_main_v21 i) = ix1 (i 1) := funext fun a => by
    match a with
    | ⟨0, _⟩ => rfl
  -- addition, maximum and the constant 0.0 are those of the extended reals
  rw [hb, Ideal.maximumf_def, Ideal.addf_def, Ideal.ofBits_def, Ideal.ofBits_zero_f32]
  unfold Cert.EdgeMlp.hidden Cert.EdgeMlp.dense
  refine congrArg (fun t => max (t + x3 (ix1 (i 1))) 0) ?_
  refine Finset.sum_congr rfl fun k _ => ?_
  rewrite [hl, hr]
  rfl

/-- The second layer: the same reading one stage later, over the first layer's array. -/
theorem layer2 (x0 : (⟨S100000x5, .f32⟩ : BufTy).Contents (Elt Ideal)) (x1 : (⟨S2x3200000, .i32⟩ : BufTy).Contents (Elt Ideal)) (x2 : (⟨S10x50, .f32⟩ : BufTy).Contents (Elt Ideal)) (x3 : (⟨S50, .f32⟩ : BufTy).Contents (Elt Ideal)) (x4 : (⟨S50x50, .f32⟩ : BufTy).Contents (Elt Ideal)) (x5 : (⟨S50, .f32⟩ : BufTy).Contents (Elt Ideal)) :
    val_main_v28 (F := Ideal) x0 x1 x2 x3 x4 x5
      = Cert.EdgeMlp.hidden (Cert.EdgeMlp.hidden (val_main_v18 (F := Ideal) x0 x1) x2 x3) x4 x5 := by
  funext i
  rw [val_main_v28_apply, val_main_v27_apply, val_main_v24_apply, val_main_v26_apply, val_main_v25_apply,
    val_main_call1_v0_apply, val_main_call1_cst_apply, layer1]
  generalize Cert.EdgeMlp.hidden (val_main_v18 (F := Ideal) x0 x1) x2 x3 = H
  have hl : ∀ k : Fin 50, lidx_main_v24 i k = ix2 (i 0) k := fun k => funext fun a => by
    match a with
    | ⟨0, _⟩ => rfl
    | ⟨1, _⟩ => rfl
  have hr : ∀ k : Fin 50, ridx_main_v24 i k = ix2 k (i 1) := fun k => funext fun a => by
    match a with
    | ⟨0, _⟩ => rfl
    | ⟨1, _⟩ => rfl
  have hb : idx_main_v25 (idx_main_v26 i) = ix1 (i 1) := funext fun a => by
    match a with
    | ⟨0, _⟩ => rfl
  rw [hb, Ideal.maximumf_def, Ideal.addf_def, Ideal.ofBits_def, Ideal.ofBits_zero_f32]
  unfold Cert.EdgeMlp.hidden Cert.EdgeMlp.dense
  refine congrArg (fun t => max (t + x5 (ix1 (i 1))) 0) ?_
  refine Finset.sum_congr rfl fun k _ => ?_
  rewrite [hl, hr]
  rfl

/-- The whole reference: the third layer has one column, so its column coordinate is `0`; the score goes through
    negation, the exponential, `1 + ·` and `1 / ·`, which is the logistic function written out. -/
theorem ref_result (x0 : (⟨S100000x5, .f32⟩ : BufTy).Contents (Elt Ideal)) (x1 : (⟨S2x3200000, .i32⟩ : BufTy).Contents (Elt Ideal)) (x2 : (⟨S10x50, .f32⟩ : BufTy).Contents (Elt Ideal)) (x3 : (⟨S50, .f32⟩ : BufTy).Contents (Elt Ideal)) (x4 : (⟨S50x50, .f32⟩ : BufTy).Contents (Elt Ideal)) (x5 : (⟨S50, .f32⟩ : BufTy).Contents (Elt Ideal)) (x6 : (⟨S50x1, .f32⟩ : BufTy).Contents (Elt Ideal)) (x7 : (⟨S1, .f32⟩ : BufTy).Contents (Elt Ideal)) :
    val_main_v38 (F := Ideal) x0 x1 x2 x3 x4 x5 x6 x7
      = Cert.EdgeMlp.result (val_main_v18 (F := Ideal) x0 x1) x2 x3 x4 x5 x6 x7 := by
  funext i
  rw [val_main_v38_apply, val_main_v37_apply, val_main_cst_3_apply, val_main_v36_apply, val_main_v35_apply,
    val_main_cst_apply, val_main_v34_apply, val_main_v33_apply, val_main_v32_apply, val_main_v29_apply,
    val_main_v31_apply, val_main_v30_apply, layer2]
  unfold Cert.EdgeMlp.result Cert.EdgeMlp.edge Cert.EdgeMlp.dense Ideal.logistic
  generalize Cert.EdgeMlp.hidden (Cert.EdgeMlp.hidden (val_main_v18 (F := Ideal) x0 x1) x2 x3) x4 x5 = H
  have hl : ∀ k : Fin 50, lidx_main_v29 i k = ix2 (i 0) k := fun k => funext fun a => by
    match a with
    | ⟨0, _⟩ => rfl
    | ⟨1, _⟩ => rfl
  have hr : ∀ k : Fin 50, ridx_main_v29 i k = ix2 k (0 : Fin 1) := fun k => funext fun a => by
    match a with
    | ⟨0, _⟩ => rfl
    -- a coordinate below 1 is 0
    | ⟨1, _⟩ => exact Fin.ext (by have h : (i 1).val < 1 := (i 1).isLt; show (i 1).val = 0; omega)
  have hb : idx_main_v30 (idx_main_v31 i) = ix1 (0 : Fin 1) := funext fun a => by
    match a with
    | ⟨0, _⟩ => rfl
  rw [hb]
  simp only [Ideal.hostDivf_def, Ideal.ofBits_def, Ideal.ofBits_one_f32, Ideal.addf_def, Ideal.hostUnary_exp_def,
    Ideal.hostNegf_def, Ideal.negf_def]
  refine congrArg (fun t => Ideal.div 1 (1 + Ideal.exp (-(t + x7 (ix1 (0 : Fin 1)))))) ?_
  refine Finset.sum_congr rfl fun k _ => ?_
  rewrite [hl, hr]
  rfl

end Cert.EdgeMlp.RefSide
end
-- ==== Proof.RowLocal.lean ====
/-
  A dense layer's row depends only on the same row of its input.

  Row e of X·W + b is the sum over k of X[e, k]·W[k, c] plus b[c]: nothing of X outside row e enters. So if row p of
  one array equals row r of another (of possibly another number of rows), the layers built on them agree at those rows.
  This is what lets a block of rows be computed on its own and be the same rows of the whole array's result.
-/
import proofs.«129136_j10917806866765_2_alg».proof.Proof.Spec

noncomputable section

namespace Cert.EdgeMlp

open Idealize.ShloMosaic Idealize.ShloMosaic.ValueIdx

/-- A bias held as one row [1, C], read as a vector of C entries. -/
def row {C : Nat} (x : (⟨2, ![1, C]⟩ : Shape).Idx → EReal) : (⟨1, ![C]⟩ : Shape).Idx → EReal :=
  fun i => x (ix2 (0 : Fin 1) (i 0))

theorem dense_congr_row {n n' K C : Nat} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (r : Fin n')
    (h : ∀ k : Fin K, X (ix2 p k) = X' (ix2 r k)) (c : Fin C) : dense X W b p c = dense X' W b r c := by
  unfold dense
  refine congrArg (· + b (ix1 c)) (Finset.sum_congr rfl fun k _ => ?_)
  rw [h k]

theorem hidden_congr_row {n n' K C : Nat} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (r : Fin n')
    (h : ∀ k : Fin K, X (ix2 p k) = X' (ix2 r k)) (c : Fin C) : hidden X W b (ix2 p c) = hidden X' W b (ix2 r c) := by
  show max (dense X W b p c) 0 = max (dense X' W b r c) 0
  rw [dense_congr_row X X' W b p r h c]

/-- The hidden layer at an entry named by its coordinates. -/
theorem hidden_apply {n K C : Nat} (X : (⟨2, ![n, K]⟩ : Shape).Idx → EReal) (W : (⟨2, ![K, C]⟩ : Shape).Idx → EReal)
    (b : (⟨1, ![C]⟩ : Shape).Idx → EReal) (e : Fin n) (c : Fin C) : hidden X W b (ix2 e c) = max (dense X W b e c) 0 := rfl

end Cert.EdgeMlp

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Payload.lean ====
/-
  What the kernel body stores, at one entry.

  At a grid point the body holds a block X of 2560 packed rows (50 numbers each), the three block-diagonal weight
  matrices and the three tiled bias rows, and stores, at row p and column q of its 2560 by 5 output block, the
  logistic function of the third packed layer: each layer is a matrix product into a zero accumulator plus the bias
  row spread over the rows, and after the first two the positive part. Changes of float format are the identity on
  the extended reals, so entry (p, q) is the network of Spec.lean applied to the PACKED arrays, with each bias row
  read as a vector.
-/
import proofs.«129136_j10917806866765_2_alg».proof.Proof.Gen.KernelIdeal.Skeleton
import proofs.«129136_j10917806866765_2_alg».proof.Proof.RowLocal
import proofs.«129136_j10917806866765_2_alg».proof.Proof.LibPlainContract
import Idealize.ShloMosaic.Lib.ValueLayout
import Idealize.ShloMosaic.Lib.Pipeline.Value

noncomputable section

namespace Cert.EdgeMlp.Payload

open Idealize.ShloMosaic Idealize.ShloMosaic.ValueIdx Cert.KernelIdeal Cert.EdgeMlp

/-- A product into the zero accumulator plus a bias row spread over the rows, at entry (p, q): the dense layer. -/
theorem product_bias_apply (M K N : Nat) {φ₁ φ₂ : FTy} (l : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul (DotDims.plain M K N) none l w (constant ⟨2, ![M, N]⟩ .f32 0x00000000#32)) (broadcastTo ⟨2, ![M, N]⟩ b hb) (ix2 p q)
      = dense l w (row b) p q := by
  rw [addf_apply]
  refine congrArg₂ (· + ·) ?_ ?_
  · exact Cert.LibPlainContract.matmul_plain_apply M K N none l w p q
  · exact broadcastTo_1b_ab_apply b hb p q

/-- The positive part of such a layer, narrowed to the matrix unit's input format (the identity here), is the hidden
    layer of Spec.lean, as an array. -/
theorem hidden_layer_eq (M K N : Nat) {φ₁ φ₂ : FTy} (l : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (hlt : FTy.bf16.bits < FTy.f32.bits) :
    (truncf .bf16 (maximumf (addf (matmul (DotDims.plain M K N) none l w (constant ⟨2, ![M, N]⟩ .f32 0x00000000#32))
        (broadcastTo ⟨2, ![M, N]⟩ b hb)) (broadcast ⟨2, ![M, N]⟩ (Scalar.ofBits (F := Ideal) .f32 0x00000000#32))) hlt
      : FVec Ideal ⟨2, ![M, N]⟩ .bf16) = hidden l w (row b) := by
  funext i
  obtain ⟨p, q, rfl⟩ : ∃ (p : Fin M) (q : Fin N), i = ix2 p q := ⟨i 0, i 1, eq_ix2 i⟩
  show max (addf (matmul (DotDims.plain M K N) none l w (constant ⟨2, ![M, N]⟩ .f32 0x00000000#32))
      (broadcastTo ⟨2, ![M, N]⟩ b hb) (ix2 p q)) (Ideal.ofBits .f32 0x00000000#32) = max (dense l w (row b) p q) 0
  rw [product_bias_apply, Ideal.ofBits_zero_f32]

/-- THE BODY'S STORE at entry (p, q): the logistic function of the third packed layer over the two hidden ones. -/
theorem pay_apply (x0 : Vec Ideal S2560x50 .bf16) (x1 : Vec Ideal S50x250 .f32) (x2 : Vec Ideal S1x250 .f32)
    (x3 : Vec Ideal S250x250 .f32) (x4 : Vec Ideal S1x250 .f32) (x5 : Vec Ideal S250x5 .f32) (x6 : Vec Ideal S1x5 .f32)
    (p : Fin 2560) (q : Fin 5) :
    Gen.k0_pay1 (F := Ideal) x0 x1 x2 x3 x4 x5 x6 (ix2 p q)
      = Ideal.logistic (dense (hidden (hidden (K := 50) (C := 250) x0 x1 (row x2)) x3 (row x4)) x5 (row x6) p q) := by
  unfold Gen.k0_pay1
  simp only [shapeCast_self]
  refine congrArg Ideal.logistic ?_
  refine Eq.trans ?_ (product_bias_apply 2560 250 5 (φ₁ := .bf16) (φ₂ := .f32) (hidden (hidden (K := 50) (C := 250) x0 x1 (row x2)) x3 (row x4)) x5 x6 Gen.broadcasts_S1x5_S2560x5 p q)
  rw [← hidden_layer_eq 2560 250 250 (φ₁ := .bf16) (φ₂ := .f32) (hidden (K := 50) (C := 250) x0 x1 (row x2)) x3 x4 Gen.broadcasts_S1x250_S2560x250 Gen.bitsLt_bf16_f32]
  rw [← hidden_layer_eq 2560 50 250 (φ₁ := .bf16) (φ₂ := .f32) x0 x1 x2 Gen.broadcasts_S1x250_S2560x250 Gen.bitsLt_bf16_f32]
  rfl

end Cert.EdgeMlp.Payload

end
-- ==== Proof.Blocks.lean ====
/-
  From blocks to the array.

  The region's grid has 250 points; point t stages rows 2560·t … 2560·t + 2559 of the packed features, the whole of each
  block-diagonal weight matrix and tiled bias row, and writes back rows 2560·t … 2560·t + 2559 of the 640000 by 5 result.
  Because a row of the packed network depends only on the same row of the packed features, what point t writes back
  is exactly block t of ONE whole-array function, the packed network of the arrays as the region finds them; the 250
  blocks tile the result, so after the run the result array IS that function.
-/
import proofs.«129136_j10917806866765_2_alg».proof.Proof.Gen.KernelIdeal.Frame
import proofs.«129136_j10917806866765_2_alg».proof.Proof.Payload
import proofs.«129136_j10917806866765_2_alg».proof.Proof.RowLocal
import Idealize.ShloMosaic.Lib.Pipeline.Value

set_option maxRecDepth 16384

noncomputable section

namespace Cert.KernelIdeal.BlockValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.EdgeMlp Cert.EdgeMlp.Payload

variable (m : (ℓ : Loc nD τ sig) → Buf (Elt Ideal) ℓ)

/-- The packed network on whole arrays: entry (i, j) is the logistic function of the third packed layer at row i,
    column j. -/
def packedOut (X : S640000x50.Idx → EReal) (w1 : S50x250.Idx → EReal) (t1 : S1x250.Idx → EReal)
    (w2 : S250x250.Idx → EReal) (t2 : S1x250.Idx → EReal) (w3 : S250x5.Idx → EReal) (t3 : S1x5.Idx → EReal) :
    S640000x5.Idx → EReal :=
  fun i => Ideal.logistic (dense (hidden (hidden X w1 (row t1)) w2 (row t2)) w3 (row t3) (i 0) (i 1))

theorem hz : (![0, 0] : Fin 2 → Nat) = fun _ => 0 := funext fun a => by fin_cases a <;> rfl

/-- What one point stores, at a local entry y, is the packed network at the array entry i with the same column and
    the row r0 + (local row), when the staged feature block holds rows r0 … of the packed features. -/
theorem point_eq (X : S640000x50.Idx → EReal) (w1 : S50x250.Idx → EReal) (t1 : S1x250.Idx → EReal)
    (w2 : S250x250.Idx → EReal) (t2 : S1x250.Idx → EReal) (w3 : S250x5.Idx → EReal) (t3 : S1x5.Idx → EReal)
    (x0 : Vec Ideal S2560x50 .bf16) (r0 : Nat)
    (hx0 : ∀ (p : Fin 2560) (k : Fin 50) (r : Fin 640000), r.val = r0 + p.val → x0 (ix2 p k) = X (ix2 r k))
    (y : S2560x5.Idx) (i : S640000x5.Idx) (hi0 : (i 0).val = r0 + (y 0).val) (hi1 : (i 1).val = (y 1).val) :
    Gen.k0_pay1 (F := Ideal) x0 w1 t1 w2 t2 w3 t3 y = packedOut X w1 t1 w2 t2 w3 t3 i := by
  obtain ⟨p, q, rfl⟩ : ∃ (p : Fin 2560) (q : Fin 5), y = ix2 p q := ⟨y 0, y 1, eq_ix2 y⟩
  obtain ⟨r, q', rfl⟩ : ∃ (r : Fin 640000) (q' : Fin 5), i = ix2 r q' := ⟨i 0, i 1, eq_ix2 i⟩
  have hq : q' = q := Fin.ext hi1
  subst hq
  rw [pay_apply]
  show Ideal.logistic _ = Ideal.logistic (dense _ w3 (row t3) r q')
  refine congrArg Ideal.logistic ?_
  refine dense_congr_row _ _ w3 (row t3) p r (fun k2 => ?_) q'
  refine hidden_congr_row _ _ w2 (row t2) p r (fun k1 => ?_) k2
  refine hidden_congr_row x0 X w1 (row t1) p r (fun k0 => ?_) k1
  exact hx0 p k0 r hi0

/-- The same with the staged weight and bias blocks given up to equality with the whole arrays. -/
theorem point_eq' (X : S640000x50.Idx → EReal) (w1 : S50x250.Idx → EReal) (t1 : S1x250.Idx → EReal)
    (w2 : S250x250.Idx → EReal) (t2 : S1x250.Idx → EReal) (w3 : S250x5.Idx → EReal) (t3 : S1x5.Idx → EReal)
    (x0 : Vec Ideal S2560x50 .bf16) (x1 : Vec Ideal S50x250 .f32) (x2 : Vec Ideal S1x250 .f32) (x3 : Vec Ideal S250x250 .f32)
    (x4 : Vec Ideal S1x250 .f32) (x5 : Vec Ideal S250x5 .f32) (x6 : Vec Ideal S1x5 .f32)
    (h1 : x1 = w1) (h2 : x2 = t1) (h3 : x3 = w2) (h4 : x4 = t2) (h5 : x5 = w3) (h6 : x6 = t3) (r0 : Nat)
    (hx0 : ∀ (p : Fin 2560) (k : Fin 50) (r : Fin 640000), r.val = r0 + p.val → x0 (ix2 p k) = X (ix2 r k))
    (y : S2560x5.Idx) (i : S640000x5.Idx) (hi0 : (i 0).val = r0 + (y 0).val) (hi1 : (i 1).val = (y 1).val) :
    Gen.k0_pay1 (F := Ideal) x0 x1 x2 x3 x4 x5 x6 y = packedOut X w1 t1 w2 t2 w3 t3 i := by
  subst h1 h2 h3 h4 h5 h6
  exact point_eq X x1 x2 x3 x4 x5 x6 x0 r0 hx0 y i hi0 hi1

/-- The printed index maps, decided over the grid: the feature window and the result window sit at block t of their
    row axis, every weight and bias window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- A window whose one block is the whole array stages the array itself. -/
theorem iblk1 (c : Dev nD) (t : Fin cfg0.N) : iblk m c 1 t = V m c main_v27 := by
  obtain ⟨-, -, e0, e1, -⟩ := idx_facts t
  unfold iblk
  funext y
  show V m c main_v27 (((cfg0.win 1).blk t).view.emb y) = V m c main_v27 y
  refine congrArg (V m c main_v27) (funext fun a => Fin.ext ?_)
  match a with
  | ⟨0, _⟩ => show win0_1.index t (0 : Fin 2) * 50 + 1 * (y 0).val = (y 0).val; omega
  | ⟨1, _⟩ => show win0_1.index t (1 : Fin 2) * 250 + 1 * (y 1).val = (y 1).val; omega

theorem iblk2 (c : Dev nD) (t : Fin cfg0.N) : iblk m c 2 t = V m c main_v45 := by
  obtain ⟨-, -, -, -, e0, e1, -⟩ := idx_facts t
  unfold iblk
  funext y
  show V m c main_v45 (((cfg0.win 2).blk t).view.emb y) = V m c main_v45 y
  refine congrArg (V m c main_v45) (funext fun a => Fin.ext ?_)
  match a with
  | ⟨0, _⟩ => show win0_2.index t (0 : Fin 2) * 1 + 1 * (y 0).val = (y 0).val; omega
  | ⟨1, _⟩ => show win0_2.index t (1 : Fin 2) * 250 + 1 * (y 1).val = (y 1).val; omega

theorem iblk3 (c : Dev nD) (t : Fin cfg0.N) : iblk m c 3 t = V m c main_v34 := by
  obtain ⟨-, -, -, -, -, -, e0, e1, -⟩ := idx_facts t
  unfold iblk
  funext y
  show V m c main_v34 (((cfg0.win 3).blk t).view.emb y) = V m c main_v34 y
  refine congrArg (V m c main_v34) (funext fun a => Fin.ext ?_)
  match a with
  | ⟨0, _⟩ => show win0_3.index t (0 : Fin 2) * 250 + 1 * (y 0).val = (y 0).val; omega
  | ⟨1, _⟩ => show win0_3.index t (1 : Fin 2) * 250 + 1 * (y 1).val = (y 1).val; omega

theorem iblk4 (c : Dev nD) (t : Fin cfg0.N) : iblk m c 4 t = V m c main_v49 := by
  obtain ⟨-, -, -, -, -, -, -, -, e0, e1, -⟩ := idx_facts t
  unfold iblk
  funext y
  show V m c main_v49 (((cfg0.win 4).blk t).view.emb y) = V m c main_v49 y
  refine congrArg (V m c main_v49) (funext fun a => Fin.ext ?_)
  match a with
  | ⟨0, _⟩ => show win0_4.index t (0 : Fin 2) * 1 + 1 * (y 0).val = (y 0).val; omega
  | ⟨1, _⟩ => show win0_4.index t (1 : Fin 2) * 250 + 1 * (y 1).val = (y 1).val; omega

theorem iblk5 (c : Dev nD) (t : Fin cfg0.N) : iblk m c 5 t = V m c main_v41 := by
  obtain ⟨-, -, -, -, -, -, -, -, -, -, e0, e1, -⟩ := idx_facts t
  unfold iblk
  funext y
  show V m c main_v41 (((cfg0.win 5).blk t).view.emb y) = V m c main_v41 y
  refine congrArg (V m c main_v41) (funext fun a => Fin.ext ?_)
  match a with
  | ⟨0, _⟩ => show win0_5.index t (0 : Fin 2) * 250 + 1 * (y 0).val = (y 0).val; omega
  | ⟨1, _⟩ => show win0_5.index t (1 : Fin 2) * 5 + 1 * (y 1).val = (y 1).val; omega

theorem iblk6 (c : Dev nD) (t : Fin cfg0.N) : iblk m c 6 t = V m c main_v53 := by
  obtain ⟨-, -, -, -, -, -, -, -, -, -, -, -, e0, e1, -⟩ := idx_facts t
  unfold iblk
  funext y
  show V m c main_v53 (((cfg0.win 6).blk t).view.emb y) = V m c main_v53 y
  refine congrArg (V m c main_v53) (funext fun a => Fin.ext ?_)
  match a with
  | ⟨0, _⟩ => show win0_6.index t (0 : Fin 2) * 1 + 1 * (y 0).val = (y 0).val; omega
  | ⟨1, _⟩ => show win0_6.index t (1 : Fin 2) * 5 + 1 * (y 1).val = (y 1).val; omega

/-- The feature window at point t stages rows 2560·t … of the packed features. -/
theorem iblk0_apply (c : Dev nD) (t : Fin cfg0.N) (p : Fin 2560) (k : Fin 50) (r : Fin 640000) (hr : r.val = t.val * 2560 + p.val) :
    iblk m c 0 t (ix2 p k) = V m c main_v20 (ix2 r k) := by
  obtain ⟨e0, e1, -⟩ := idx_facts t
  unfold iblk
  show V m c main_v20 (((cfg0.win 0).blk t).view.emb (ix2 p k)) = V m c main_v20 (ix2 r k)
  refine congrArg (V m c main_v20) (funext fun a => Fin.ext ?_)
  match a with
  | ⟨0, _⟩ => show win0_0.index t (0 : Fin 2) * 2560 + 1 * p.val = r.val; omega
  | ⟨1, _⟩ => show win0_0.index t (1 : Fin 2) * 50 + 1 * k.val = k.val; omega

/-- WHAT POINT t WRITES BACK is block t of the packed network of the arrays as the region finds them. -/
theorem flushed_eq (c : Dev nD) (t : Fin cfg0.N) :
    (dats m 0 c).flushed 7 t = ((cfg0.win 7).blk t).view.read (Elt Ideal)
      (packedOut (V m c main_v20) (V m c main_v27) (V m c main_v45) (V m c main_v34) (V m c main_v49) (V m c main_v41) (V m c main_v53)) := by
  show (cfg0.win 7).cut (grid0.coords t) ((dats m 0 c).after 7 t) = _
  rw [after0_7]
  unfold out0_7
  rw [View.canon_unit_zero hz]
  simp only [View.ld_unit_zero (S := S2560x50) hz, View.ld_unit_zero (S := S50x250) hz, View.ld_unit_zero (S := S1x250) hz,
    View.ld_unit_zero (S := S250x250) hz, View.ld_unit_zero (S := S250x5) hz, View.ld_unit_zero (S := S1x5) hz]
  obtain ⟨-, -, -, -, -, -, -, -, -, -, -, -, -, -, e70, e71⟩ := idx_facts t
  funext j
  have h0 : ((((cfg0.win 7).blk t).view.emb j) 0).val = t.val * 2560 + (((win0 7).xinj (grid0.coords t) j) 0).val := by
    show win0_7.index t (0 : Fin 2) * 2560 + 1 * (j 0).val = t.val * 2560 + (j 0).val; omega
  have h1 : ((((cfg0.win 7).blk t).view.emb j) 1).val = (((win0 7).xinj (grid0.coords t) j) 1).val := by
    show win0_7.index t (1 : Fin 2) * 5 + 1 * (j 1).val = (j 1).val; omega
  have key := point_eq' (V m c main_v20) (V m c main_v27) (V m c main_v45) (V m c main_v34) (V m c main_v49) (V m c main_v41) (V m c main_v53)
    (iblk m c 0 t) (iblk m c 1 t) (iblk m c 2 t) (iblk m c 3 t) (iblk m c 4 t) (iblk m c 5 t) (iblk m c 6 t)
    (iblk1 m c t) (iblk2 m c t) (iblk3 m c t) (iblk4 m c t) (iblk5 m c t) (iblk6 m c t)
    (t.val * 2560) (fun p k r hr => iblk0_apply m c t p k r hr) ((win0 7).xinj (grid0.coords t) j) (((cfg0.win 7).blk t).view.emb j) h0 h1
  generalize Gen.k0_pay1 (F := Ideal) (iblk m c 0 t) (iblk m c 1 t) (iblk m c 2 t) (iblk m c 3 t) (iblk m c 4 t) (iblk m c 5 t) (iblk m c 6 t) = P at key ⊢
  generalize packedOut (V m c main_v20) (V m c main_v27) (V m c main_v45) (V m c main_v34) (V m c main_v49) (V m c main_v41) (V m c main_v53) = G at key ⊢
  exact key

/-- An index of the result array is in point t's block iff each coordinate is in the block's range on its axis. -/
theorem mem_blk (t : Fin cfg0.N) (i : S640000x5.Idx) :
    i ∈ ((cfg0.win 7).blk t).view.set ↔ ∀ a : Fin 2, win0_7.index t a * S2560x5.size a ≤ (i a).val ∧ (i a).val < win0_7.index t a * S2560x5.size a + S2560x5.size a := by
  show i ∈ ((View.whole main_v54).slice (win0_7.rect t)).set ↔ _
  rw [View.set_slice_whole, Rect.mem_set_unit]
  exact Iff.rfl

/-- Every entry of the result lies in some point's block: row r is in block r / 2560. -/
theorem cover (i : S640000x5.Idx) : ∃ t : Fin cfg0.N, (cfg0.win 7).flush t = true ∧ i ∈ ((cfg0.win 7).blk t).view.set := by
  have hi0 : (i 0).val < 640000 := (i 0).isLt
  have hi1 : (i 1).val < 5 := (i 1).isLt
  have hN : grid0.N = 250 := N_0
  have hlt : (i 0).val / 2560 < grid0.N := by rw [hN]; omega
  obtain ⟨-, -, -, -, -, -, -, -, -, -, -, -, -, -, e70, e71⟩ := idx_facts ⟨(i 0).val / 2560, hlt⟩
  refine ⟨⟨(i 0).val / 2560, hlt⟩, flush0_7 _, ?_⟩
  rw [mem_blk]
  intro a
  match a with
  | ⟨0, _⟩ =>
    show win0_7.index ⟨(i 0).val / 2560, hlt⟩ (0 : Fin 2) * 2560 ≤ (i 0).val ∧ (i 0).val < win0_7.index ⟨(i 0).val / 2560, hlt⟩ (0 : Fin 2) * 2560 + 2560
    rw [e70]
    show (i 0).val / 2560 * 2560 ≤ (i 0).val ∧ (i 0).val < (i 0).val / 2560 * 2560 + 2560
    omega
  | ⟨1, _⟩ =>
    show win0_7.index ⟨(i 0).val / 2560, hlt⟩ (1 : Fin 2) * 5 ≤ (i 1).val ∧ (i 1).val < win0_7.index ⟨(i 0).val / 2560, hlt⟩ (1 : Fin 2) * 5 + 5
    omega

/-- THE RESULT ARRAY after the run is the packed network of the arrays as the region finds them. -/
theorem final (c : Dev nD) : (dats m 0 c).arrAt 7 cfg0.N
    = packedOut (V m c main_v20) (V m c main_v27) (V m c main_v45) (V m c main_v34) (V m c main_v49) (V m c main_v41) (V m c main_v53) :=
  (dats m 0 c).arrAt_eq_of_cover 7 _ (fun t _ => flushed_eq m c t) cover

end Cert.KernelIdeal.BlockValue

end
-- ==== Proof.HostLayout.lean ====
import proofs.«129136_j10917806866765_2_alg».proof.KernelIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.HostLayout

open Idealize.ShloMosaic Idealize.ShloMosaic.ValueIdx Cert.KernelIdeal

/- The shape relations the host operations cite are the program's stated facts; the definitions below take them from
   whichever witness is in scope (they are propositions, so any two witnesses give the same term). -/
variable [Facts₀]
open Facts₀

/-! # The host layout of the packed kernel, read entry by entry

The kernel handles FIVE consecutive rows of its input at once. An array of 3,200,000 rows of 10 numbers is re-read,
in row-major order, as 640,000 rows of 50, so that packed entry `(i, a·10 + k)` is entry `(5i + a, k)` of the array.
Each weight matrix `W` is replaced by the block-diagonal matrix `I₅ ⊗ W`, whose entry `(a·K + k, j·N + c)` is
`I₅(a, j) · W(k, c)`; each bias row is repeated five times; and the 640,000×5 result is re-read as 3,200,000×1, entry
`(5i + j, 0)` being packed entry `(i, j)`. Every statement is at the exact reading of floats: a float is an extended
real, a product is the extended reals' product, and a change of format is the identity. -/

/-! ## The 5×5 identity -/

/-- The 5×5 identity matrix as the host builds it: the row number (plus a zero) is compared with the column number, and
    the one-bit outcome is read as a float. -/
def eye : FVec Ideal S5x5 .f32 :=
  uitofp (F := Ideal) .f32
    (cmpi .eq (addi (iotaInDim S5x5 32 0) (broadcastInDim S5x5 ![] bcast_S_S5x5 (constantI S_ 32 0#32)))
      (iotaInDim S5x5 32 1))

/-- Its entry `(a, j)` is `1` on the diagonal and `0` off it. -/
theorem eye_apply (a j : Fin 5) : eye (ix2 a j) = if a = j then (1 : EReal) else 0 := by
  -- the comparison of the two coordinates, as 32-bit words, is the one-bit word of `a = j`: 25 cases
  have hw : IntOp.cmpi .eq (IntOp.addi (BitVec.ofNat 32 a.val) 0#32) (BitVec.ofNat 32 j.val)
      = if a = j then 1#1 else 0#1 := by
    revert a j; decide
  show (((IntOp.cmpi .eq (IntOp.addi (BitVec.ofNat 32 a.val)
      (broadcastInDim S5x5 ![] bcast_S_S5x5 (constantI S_ 32 0#32) (ix2 a j))) (BitVec.ofNat 32 j.val)).toNat : ℝ) : EReal) = _
  rw [broadcastInDim_scalar_apply]
  show (((IntOp.cmpi .eq (IntOp.addi (BitVec.ofNat 32 a.val) 0#32) (BitVec.ofNat 32 j.val)).toNat : ℝ) : EReal) = _
  rw [hw]
  by_cases h : a = j
  · rw [if_pos h, if_pos h]; norm_num
  · rw [if_neg h, if_neg h]; norm_num

/-! ## The Kronecker product with a 5×5 matrix -/

/-- `E ⊗ W` for a 5×5 matrix `E` and a `K×N` matrix `W`, read at one entry: `E` is spread over the axes `(a, ·, j, ·)` and
    `W` over `(·, k, ·, c)` of a `5×K×5×N` array, the two are multiplied entry by entry, and the array is re-read in
    row-major order as `(5K)×(5N)`. Row `a·K + k`, column `j·N + c` of the result sits at row-major position
    `((a·K + k)·5 + j)·N + c`, which is the position of `(a, k, j, c)`; there the product is `E(a, j) · W(k, c)`. -/
private theorem kron_gen {K N R Q : Nat} (E : FVec Ideal S5x5 .f32) (W : FVec Ideal ⟨2, ![K, N]⟩ .f32)
    (h1 : S5x5.BroadcastsInDim S5x1x5x1 (![0, 2] : Fin 2 → Fin S5x1x5x1.rank))
    (h2 : (⟨2, ![K, N]⟩ : Shape).BroadcastsInDim ⟨4, ![1, K, 1, N]⟩ (![1, 3] : Fin 2 → Fin 4))
    (h3 : S5x1x5x1.BroadcastsInDim ⟨4, ![5, K, 5, N]⟩ (![0, 1, 2, 3] : Fin 4 → Fin 4))
    (h4 : (⟨4, ![1, K, 1, N]⟩ : Shape).BroadcastsInDim ⟨4, ![5, K, 5, N]⟩ (![0, 1, 2, 3] : Fin 4 → Fin 4))
    (h5 : (⟨4, ![5, K, 5, N]⟩ : Shape).ShapeCasts ⟨2, ![R, Q]⟩)
    (hQ : Q = 5 * N)
    (a j : Fin 5) (k : Fin K) (c : Fin N) (r : Fin R) (q : Fin Q)
    (hr : r.val = a.val * K + k.val) (hq : q.val = j.val * N + c.val) :
    shapeCast (⟨2, ![R, Q]⟩ : Shape)
      (mulf (broadcastInDim (⟨4, ![5, K, 5, N]⟩ : Shape) ![0, 1, 2, 3] h3 (broadcastInDim S5x1x5x1 ![0, 2] h1 E))
            (broadcastInDim (⟨4, ![5, K, 5, N]⟩ : Shape) ![0, 1, 2, 3] h4 (broadcastInDim (⟨4, ![1, K, 1, N]⟩ : Shape) ![1, 3] h2 W)))
      h5 (ix2 r q) = E (ix2 a j) * W (ix2 k c) := by
  have hk := k.isLt
  have hc := c.isLt
  -- the re-reading: entry (r, q) is the 4-axis entry (a, k, j, c), the two having one row-major position
  refine (shapeCast_apply _ h5 (ix2 r q) (ix4 a k j c) ?_).trans ?_
  · rw [Shape.rowMajor_val_four, Shape.rowMajor_val_two]
    show ((a.val * K + k.val) * 5 + j.val) * N + c.val = r.val * Q + q.val
    rw [hr, hq, hQ]; ring
  rw [mulf_apply]
  congr 1
  · -- the 5×5 factor: (a, k, j, c) ↦ (a, 0, j, 0) ↦ (a, j)
    refine (broadcastInDim_apply _ h3 _ (ix4 a k j c) (ix4 a (0 : Fin 1) j (0 : Fin 1)) ?_).trans ?_
    · intro x
      match x with
      | ⟨0, _⟩ => rfl
      | ⟨1, _⟩ => rfl
      | ⟨2, _⟩ => rfl
      | ⟨3, _⟩ => rfl
    refine broadcastInDim_apply _ h1 _ (ix4 a (0 : Fin 1) j (0 : Fin 1)) (ix2 a j) ?_
    intro x
    match x with
    | ⟨0, _⟩ => rfl
    | ⟨1, _⟩ => rfl
  · -- the K×N factor: (a, k, j, c) ↦ (0, k, 0, c) ↦ (k, c); an axis of extent one has the single coordinate 0
    refine (broadcastInDim_apply _ h4 _ (ix4 a k j c) (ix4 (0 : Fin 1) k (0 : Fin 1) c) ?_).trans ?_
    · intro x
      match x with
      | ⟨0, _⟩ => rfl
      | ⟨1, _⟩ =>
        show k.val = if K = 1 then 0 else k.val
        split <;> omega
      | ⟨2, _⟩ => rfl
      | ⟨3, _⟩ =>
        show c.val = if N = 1 then 0 else c.val
        split <;> omega
    refine broadcastInDim_apply _ h2 _ (ix4 (0 : Fin 1) k (0 : Fin 1) c) (ix2 k c) ?_
    intro x
    match x with
    | ⟨0, _⟩ =>
      show k.val = if K = 1 then 0 else k.val
      split <;> omega
    | ⟨1, _⟩ =>
      show c.val = if N = 1 then 0 else c.val
      split <;> omega

/-- `E ⊗ W` for a 10×50 matrix `W`: a 50×250 matrix. -/
def kron1 (E : FVec Ideal S5x5 .f32) (W : FVec Ideal S10x50 .f32) : FVec Ideal S50x250 .f32 :=
  shapeCast S50x250
    (mulf (broadcastInDim S5x10x5x50 ![0, 1, 2, 3] bcast_S5x1x5x1_S5x10x5x50_0_1_2_3
            (broadcastInDim S5x1x5x1 ![0, 2] bcast_S5x5_S5x1x5x1_0_2 E))
          (broadcastInDim S5x10x5x50 ![0, 1, 2, 3] bcast_S1x10x1x50_S5x10x5x50_0_1_2_3
            (broadcastInDim S1x10x1x50 ![1, 3] bcast_S10x50_S1x10x1x50_1_3 W)))
    shapeCasts_S5x10x5x50_S50x250

/-- Entry `(a·10 + k, j·50 + c)` of `E ⊗ W` is `E(a, j) · W(k, c)`. -/
theorem kron1_apply (E : FVec Ideal S5x5 .f32) (W : FVec Ideal S10x50 .f32) (a j : Fin 5) (k : Fin 10) (c : Fin 50)
    (r : Fin 50) (q : Fin 250) (hr : r.val = a.val * 10 + k.val) (hq : q.val = j.val * 50 + c.val) :
    kron1 E W (ix2 r q) = E (ix2 a j) * W (ix2 k c) :=
  kron_gen E W _ _ _ _ _ rfl a j k c r q hr hq

/-- `E ⊗ W` for a 50×50 matrix `W`: a 250×250 matrix. -/
def kron2 (E : FVec Ideal S5x5 .f32) (W : FVec Ideal S50x50 .f32) : FVec Ideal S250x250 .f32 :=
  shapeCast S250x250
    (mulf (broadcastInDim S5x50x5x50 ![0, 1, 2, 3] bcast_S5x1x5x1_S5x50x5x50_0_1_2_3
            (broadcastInDim S5x1x5x1 ![0, 2] bcast_S5x5_S5x1x5x1_0_2 E))
          (broadcastInDim S5x50x5x50 ![0, 1, 2, 3] bcast_S1x50x1x50_S5x50x5x50_0_1_2_3
            (broadcastInDim S1x50x1x50 ![1, 3] bcast_S50x50_S1x50x1x50_1_3 W)))
    shapeCasts_S5x50x5x50_S250x250

/-- Entry `(a·50 + k, j·50 + c)` of `E ⊗ W` is `E(a, j) · W(k, c)`. -/
theorem kron2_apply (E : FVec Ideal S5x5 .f32) (W : FVec Ideal S50x50 .f32) (a j : Fin 5) (k c : Fin 50)
    (r q : Fin 250) (hr : r.val = a.val * 50 + k.val) (hq : q.val = j.val * 50 + c.val) :
    kron2 E W (ix2 r q) = E (ix2 a j) * W (ix2 k c) :=
  kron_gen E W _ _ _ _ _ rfl a j k c r q hr hq

/-- `E ⊗ W` for a 50×1 matrix `W` (a column): a 250×5 matrix. -/
def kron3 (E : FVec Ideal S5x5 .f32) (W : FVec Ideal S50x1 .f32) : FVec Ideal S250x5 .f32 :=
  shapeCast S250x5
    (mulf (broadcastInDim S5x50x5x1 ![0, 1, 2, 3] bcast_S5x1x5x1_S5x50x5x1_0_1_2_3
            (broadcastInDim S5x1x5x1 ![0, 2] bcast_S5x5_S5x1x5x1_0_2 E))
          (broadcastInDim S5x50x5x1 ![0, 1, 2, 3] bcast_S1x50x1x1_S5x50x5x1_0_1_2_3
            (broadcastInDim S1x50x1x1 ![1, 3] bcast_S50x1_S1x50x1x1_1_3 W)))
    shapeCasts_S5x50x5x1_S250x5

/-- Entry `(a·50 + k, j)` of `E ⊗ W` is `E(a, j) · W(k, 0)`. -/
theorem kron3_apply (E : FVec Ideal S5x5 .f32) (W : FVec Ideal S50x1 .f32) (a j : Fin 5) (k : Fin 50)
    (r : Fin 250) (q : Fin 5) (hr : r.val = a.val * 50 + k.val) (hq : q.val = j.val) :
    kron3 E W (ix2 r q) = E (ix2 a j) * W (ix2 k (0 : Fin 1)) :=
  kron_gen E W _ _ _ _ _ rfl a j k (0 : Fin 1) r q hr (by simp only [Fin.val_zero]; omega)

/-! ## A bias row repeated five times -/

/-- A row of 50 numbers repeated five times, as a 1×250 row: the row is stacked five times (5×50) and re-read in
    row-major order. -/
def tile50 (b : FVec Ideal S50 .f32) : FVec Ideal S1x250 .f32 :=
  shapeCast S1x250
    (shapeCast S250
      (broadcastInDim S5x50 ![0, 1] bcast_S1x50_S5x50_0_1 (shapeCast S1x50 b shapeCasts_S50_S1x50))
      shapeCasts_S5x50_S250)
    shapeCasts_S250_S1x250

/-- Entry `(0, j·50 + c)` of the repeated row is `b(c)`. -/
theorem tile50_apply (b : FVec Ideal S50 .f32) (j : Fin 5) (c : Fin 50) (q : Fin 250)
    (hq : q.val = j.val * 50 + c.val) : tile50 b (ix2 (0 : Fin 1) q) = b (ix1 c) := by
  unfold tile50
  -- (0, q) ↦ q ↦ (j, c) ↦ (0, c) ↦ c
  refine (shapeCast_apply _ _ (ix2 (0 : Fin 1) q) (ix1 q) ?_).trans ?_
  · rw [Shape.rowMajor_val_one, Shape.rowMajor_val_two]
    show q.val = (0 : Fin 1).val * 250 + q.val
    simp only [Fin.val_zero]; omega
  refine (shapeCast_apply _ _ (ix1 q) (ix2 j c) ?_).trans ?_
  · rw [Shape.rowMajor_val_one, Shape.rowMajor_val_two]
    show j.val * 50 + c.val = q.val
    omega
  refine (broadcastInDim_apply _ _ _ (ix2 j c) (ix2 (0 : Fin 1) c) ?_).trans ?_
  · intro x
    match x with
    | ⟨0, _⟩ => rfl
    | ⟨1, _⟩ => rfl
  refine shapeCast_apply _ _ (ix2 (0 : Fin 1) c) (ix1 c) ?_
  rw [Shape.rowMajor_val_one, Shape.rowMajor_val_two]
  show c.val = (0 : Fin 1).val * 50 + c.val
  simp only [Fin.val_zero]; omega

/-- A single number repeated five times, as a 1×5 row. -/
def tile1 (b : FVec Ideal S1 .f32) : FVec Ideal S1x5 .f32 :=
  shapeCast S1x5
    (shapeCast S5
      (broadcastInDim S5x1 ![0, 1] bcast_S1x1_S5x1_0_1 (shapeCast S1x1 b shapeCasts_S1_S1x1))
      shapeCasts_S5x1_S5)
    shapeCasts_S5_S1x5

/-- Every entry of the repeated number is the number. -/
theorem tile1_apply (b : FVec Ideal S1 .f32) (q : Fin 5) : tile1 b (ix2 (0 : Fin 1) q) = b (ix1 (0 : Fin 1)) := by
  unfold tile1
  -- (0, q) ↦ q ↦ (q, 0) ↦ (0, 0) ↦ 0
  refine (shapeCast_apply _ _ (ix2 (0 : Fin 1) q) (ix1 q) ?_).trans ?_
  · rw [Shape.rowMajor_val_one, Shape.rowMajor_val_two]
    show q.val = (0 : Fin 1).val * 5 + q.val
    simp only [Fin.val_zero]; omega
  refine (shapeCast_apply _ _ (ix1 q) (ix2 q (0 : Fin 1)) ?_).trans ?_
  · rw [Shape.rowMajor_val_one, Shape.rowMajor_val_two]
    show q.val * 1 + (0 : Fin 1).val = q.val
    simp only [Fin.val_zero]; omega
  refine (broadcastInDim_apply _ _ _ (ix2 q (0 : Fin 1)) (ix2 (0 : Fin 1) (0 : Fin 1)) ?_).trans ?_
  · intro x
    match x with
    | ⟨0, _⟩ => rfl
    | ⟨1, _⟩ => rfl
  refine shapeCast_apply _ _ (ix2 (0 : Fin 1) (0 : Fin 1)) (ix1 (0 : Fin 1)) ?_
  rw [Shape.rowMajor_val_one, Shape.rowMajor_val_two]
  rfl

/-! ## Packing five rows into one, and unpacking the result -/

/-- The input re-read five rows to a row: 3,200,000 rows of 10 become 640,000 rows of 50 (after a change of float format,
    which is the identity on extended reals). -/
def pack (A : FVec Ideal S3200000x10 .f32) : FVec Ideal S640000x50 .bf16 :=
  shapeCast S640000x50 (truncf .bf16 A bitsLt_bf16_f32) shapeCasts_S3200000x10_S640000x50

/-- Packed entry `(i, a·10 + k)` is entry `(5i + a, k)` of the array: both sit at row-major position `50i + 10a + k`. -/
theorem pack_apply (A : FVec Ideal S3200000x10 .f32) (i : Fin 640000) (a : Fin 5) (k : Fin 10) (r : Fin 50) (e : Fin 3200000)
    (hr : r.val = a.val * 10 + k.val) (he : e.val = 5 * i.val + a.val) : pack A (ix2 i r) = A (ix2 e k) := by
  unfold pack
  refine (shapeCast_apply _ _ (ix2 i r) (ix2 e k) ?_).trans ?_
  · rw [Shape.rowMajor_val_two, Shape.rowMajor_val_two]
    show e.val * 10 + k.val = i.val * 50 + r.val
    omega
  · rfl

/-- The 640,000×5 result re-read as 3,200,000×1. -/
def unpack (O : FVec Ideal S640000x5 .f32) : FVec Ideal S3200000x1 .f32 :=
  shapeCast S3200000x1 O shapeCasts_S640000x5_S3200000x1

/-- Entry `(5i + j, 0)` of the unpacked result is packed entry `(i, j)`. -/
theorem unpack_apply (O : FVec Ideal S640000x5 .f32) (i : Fin 640000) (j : Fin 5) (e : Fin 3200000)
    (he : e.val = 5 * i.val + j.val) : unpack O (ix2 e (0 : Fin 1)) = O (ix2 i j) := by
  unfold unpack
  refine shapeCast_apply _ _ (ix2 e (0 : Fin 1)) (ix2 i j) ?_
  rw [Shape.rowMajor_val_two, Shape.rowMajor_val_two]
  show i.val * 5 + j.val = e.val * 1 + (0 : Fin 1).val
  simp only [Fin.val_zero]
  omega

end Cert.KernelIdeal.HostLayout
-- ==== Proof.LibBlockDiag.lean ====
/-
  A sum against a block-diagonal matrix keeps one block.

  Index the positions of a row of length P·K by pairs (a, k), a < P the block and k < K the place inside it. If the
  term at (a, k) carries the factor [a = j] — one on block j and zero elsewhere — then the sum over all P·K positions
  is the sum over the K places of block j alone: every other term is a product with zero, and zero times any
  extended real is zero, so no finiteness is asked of the other factors.
-/
import Idealize.ShloMosaic.PureOps.Ideal.Laws

noncomputable section

namespace Cert.LibBlockDiag

open Finset

/-- The sum over pairs (block, place) of f(a, k) · ([a = j] · g(k)) is the sum over the places of block j. -/
theorem sum_pairs_indicator {P K : Nat} (f : Fin P → Fin K → EReal) (g : Fin K → EReal) (j : Fin P) :
    ∑ a : Fin P, ∑ k : Fin K, f a k * ((if a = j then (1 : EReal) else 0) * g k) = ∑ k : Fin K, f j k * g k := by
  rw [Finset.sum_eq_single j]
  · refine Finset.sum_congr rfl fun k _ => ?_
    rw [if_pos rfl, one_mul]
  · intro a _ ha
    refine Finset.sum_eq_zero fun k _ => ?_
    rw [if_neg ha, zero_mul, mul_zero]
  · intro h
    exact absurd (Finset.mem_univ j) h

/-- The same over one index of length P·K: a function F on the P·K positions whose value at position k + K·a is
    f(a, k) · ([a = j] · g(k)) sums to the sum over the places of block j. -/
theorem sum_blockdiag {P K : Nat} (F : Fin (P * K) → EReal) (f : Fin P → Fin K → EReal) (g : Fin K → EReal) (j : Fin P)
    (hF : ∀ (a : Fin P) (k : Fin K), F (finProdFinEquiv (a, k)) = f a k * ((if a = j then (1 : EReal) else 0) * g k)) :
    ∑ x : Fin (P * K), F x = ∑ k : Fin K, f j k * g k := by
  rw [← Equiv.sum_comp finProdFinEquiv F, Fintype.sum_prod_type]
  rw [← sum_pairs_indicator f g j]
  refine Finset.sum_congr rfl fun a _ => Finset.sum_congr rfl fun k _ => ?_
  exact hF a k

/-- The position of the pair (a, k) among the P·K: k + K·a. -/
theorem finProdFinEquiv_val {P K : Nat} (a : Fin P) (k : Fin K) : (finProdFinEquiv (a, k) : Fin (P * K)).val = k.val + K * a.val := rfl

end Cert.LibBlockDiag

end
-- ==== Proof.Packed.lean ====
/-
  Five edges packed into one row, against block-diagonal weights, compute the same network.

  Pack P consecutive rows of an array into one: Xp[i, a·K + k] = X[P·i + a, k]. Replace a weight matrix W by its
  block-diagonal repetition, Wbd[a·K + k, j·C + c] = [a = j] · W[k, c], and a bias b by its repetition
  t[0, j·C + c] = b[c]. Then the packed dense layer at (i, j·C + c) is the plain dense layer at (P·i + j, c): of the
  P·K terms of the sum only those of block j survive, the others being products with zero (and zero times any
  extended real is zero, so nothing is asked to be finite), and the terms of block j are X[P·i + j, k] · W[k, c].
  The positive part is taken entry by entry, so the hidden layers agree the same way, and a packed hidden layer is
  again a packing of the plain one: the argument repeats layer after layer.
-/
import proofs.«129136_j10917806866765_2_alg».proof.Proof.RowLocal
import proofs.«129136_j10917806866765_2_alg».proof.Proof.LibBlockDiag
import Idealize.ShloMosaic.Lib.ValueIdx

noncomputable section

namespace Cert.EdgeMlp.Packed

open Idealize.ShloMosaic Idealize.ShloMosaic.ValueIdx Cert.EdgeMlp

/-- One packed dense layer. Row `i` of `Xp` holds, in its block `a`, row `rowOf a` of `X`; column `q` of `Wbd` is
    column `c` of `W` placed in block `j` and zero in the other blocks; entry `q` of the bias row is `b[c]`. Then the
    packed layer at `(i, q)` is the plain layer at `(rowOf j, c)`. -/
theorem dense_packed {n R P K C PC : Nat}
    (X : (⟨2, ![n, K]⟩ : Shape).Idx → EReal) (W : (⟨2, ![K, C]⟩ : Shape).Idx → EReal)
    (b : (⟨1, ![C]⟩ : Shape).Idx → EReal)
    (Xp : (⟨2, ![R, P * K]⟩ : Shape).Idx → EReal) (Wbd : (⟨2, ![P * K, PC]⟩ : Shape).Idx → EReal)
    (t : (⟨2, ![1, PC]⟩ : Shape).Idx → EReal)
    (i : Fin R) (j : Fin P) (c : Fin C) (q : Fin PC) (e : Fin n) (rowOf : Fin P → Fin n) (hrow : rowOf j = e)
    (hX : ∀ (a : Fin P) (k : Fin K) (r : Fin (P * K)), r.val = a.val * K + k.val →
      Xp (ix2 i r) = X (ix2 (rowOf a) k))
    (hW : ∀ (a : Fin P) (k : Fin K) (r : Fin (P * K)), r.val = a.val * K + k.val →
      Wbd (ix2 r q) = (if a = j then (1 : EReal) else 0) * W (ix2 k c))
    (ht : t (ix2 (0 : Fin 1) q) = b (ix1 c)) :
    dense Xp Wbd (row t) i q = dense X W b e c := by
  subst hrow
  unfold dense
  have hb : row t (ix1 q) = b (ix1 c) := ht
  rw [hb]
  refine congrArg (· + b (ix1 c)) ?_
  refine Cert.LibBlockDiag.sum_blockdiag (fun x => Xp (ix2 i x) * Wbd (ix2 x q))
    (fun a k => X (ix2 (rowOf a) k)) (fun k => W (ix2 k c)) j ?_
  intro a k
  -- the pair (a, k) sits at position k + K·a = a·K + k
  have hr : (finProdFinEquiv (a, k) : Fin (P * K)).val = a.val * K + k.val := by
    rw [Cert.LibBlockDiag.finProdFinEquiv_val, Nat.mul_comm K a.val, Nat.add_comm]
  show Xp (ix2 i (finProdFinEquiv (a, k))) * Wbd (ix2 (finProdFinEquiv (a, k)) q) = _
  rw [hX a k _ hr, hW a k _ hr]

/-- The same after the positive part. -/
theorem hidden_packed {n R P K C PC : Nat}
    (X : (⟨2, ![n, K]⟩ : Shape).Idx → EReal) (W : (⟨2, ![K, C]⟩ : Shape).Idx → EReal)
    (b : (⟨1, ![C]⟩ : Shape).Idx → EReal)
    (Xp : (⟨2, ![R, P * K]⟩ : Shape).Idx → EReal) (Wbd : (⟨2, ![P * K, PC]⟩ : Shape).Idx → EReal)
    (t : (⟨2, ![1, PC]⟩ : Shape).Idx → EReal)
    (i : Fin R) (j : Fin P) (c : Fin C) (q : Fin PC) (e : Fin n) (rowOf : Fin P → Fin n) (hrow : rowOf j = e)
    (hX : ∀ (a : Fin P) (k : Fin K) (r : Fin (P * K)), r.val = a.val * K + k.val →
      Xp (ix2 i r) = X (ix2 (rowOf a) k))
    (hW : ∀ (a : Fin P) (k : Fin K) (r : Fin (P * K)), r.val = a.val * K + k.val →
      Wbd (ix2 r q) = (if a = j then (1 : EReal) else 0) * W (ix2 k c))
    (ht : t (ix2 (0 : Fin 1) q) = b (ix1 c)) :
    hidden Xp Wbd (row t) (ix2 i q) = hidden X W b (ix2 e c) := by
  show max (dense Xp Wbd (row t) i q) 0 = max (dense X W b e c) 0
  rw [dense_packed X W b Xp Wbd t i j c q e rowOf hrow hX hW ht]

/-- The packed network of three layers at packed row `i` and block `j` is the plain network at edge `5·i + j`. -/
theorem packed_network
    (A : (⟨2, ![3200000, 10]⟩ : Shape).Idx → EReal)
    (W1 : (⟨2, ![10, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 1]⟩ : Shape).Idx → EReal) (b3 : (⟨1, ![1]⟩ : Shape).Idx → EReal)
    (X : (⟨2, ![640000, 50]⟩ : Shape).Idx → EReal)
    (w1 : (⟨2, ![50, 250]⟩ : Shape).Idx → EReal) (t1 : (⟨2, ![1, 250]⟩ : Shape).Idx → EReal)
    (w2 : (⟨2, ![250, 250]⟩ : Shape).Idx → EReal) (t2 : (⟨2, ![1, 250]⟩ : Shape).Idx → EReal)
    (w3 : (⟨2, ![250, 5]⟩ : Shape).Idx → EReal) (t3 : (⟨2, ![1, 5]⟩ : Shape).Idx → EReal)
    (hX : ∀ (i : Fin 640000) (a : Fin 5) (k : Fin 10) (r : Fin 50) (e : Fin 3200000), r.val = a.val * 10 + k.val → e.val = 5 * i.val + a.val → X (ix2 i r) = A (ix2 e k))
    (hw1 : ∀ (a j : Fin 5) (k : Fin 10) (c : Fin 50) (r : Fin 50) (q : Fin 250), r.val = a.val * 10 + k.val → q.val = j.val * 50 + c.val → w1 (ix2 r q) = (if a = j then (1 : EReal) else 0) * W1 (ix2 k c))
    (ht1 : ∀ (j : Fin 5) (c : Fin 50) (q : Fin 250), q.val = j.val * 50 + c.val → t1 (ix2 (0 : Fin 1) q) = b1 (ix1 c))
    (hw2 : ∀ (a j : Fin 5) (k c : Fin 50) (r q : Fin 250), r.val = a.val * 50 + k.val → q.val = j.val * 50 + c.val → w2 (ix2 r q) = (if a = j then (1 : EReal) else 0) * W2 (ix2 k c))
    (ht2 : ∀ (j : Fin 5) (c : Fin 50) (q : Fin 250), q.val = j.val * 50 + c.val → t2 (ix2 (0 : Fin 1) q) = b2 (ix1 c))
    (hw3 : ∀ (a j : Fin 5) (k : Fin 50) (r : Fin 250) (q : Fin 5), r.val = a.val * 50 + k.val → q.val = j.val → w3 (ix2 r q) = (if a = j then (1 : EReal) else 0) * W3 (ix2 k (0 : Fin 1)))
    (ht3 : ∀ (q : Fin 5), t3 (ix2 (0 : Fin 1) q) = b3 (ix1 (0 : Fin 1)))
    (i : Fin 640000) (j : Fin 5) (e : Fin 3200000) (he : e.val = 5 * i.val + j.val) :
    Ideal.logistic (dense (hidden (hidden X w1 (row t1)) w2 (row t2)) w3 (row t3) i j) = edge A W1 b1 W2 b2 W3 b3 e := by
  -- block a of packed row i is edge 5·i + a
  have hlt : ∀ a : Fin 5, 5 * i.val + a.val < 3200000 := fun a => by
    have hi := i.isLt
    have ha := a.isLt
    omega
  let rowOf : Fin 5 → Fin 3200000 := fun a => ⟨5 * i.val + a.val, hlt a⟩
  have hej : rowOf j = e := Fin.ext he.symm
  -- first layer: blocks of ten features against W₁, fifty outputs per block
  have h1 : ∀ (a : Fin 5) (c : Fin 50) (q : Fin 250), q.val = a.val * 50 + c.val →
      hidden X w1 (row t1) (ix2 i q) = hidden A W1 b1 (ix2 (rowOf a) c) := fun a c q hq =>
    hidden_packed (P := 5) (K := 10) A W1 b1 X w1 t1 i a c q (rowOf a) rowOf rfl
      (fun a' k r hr => hX i a' k r (rowOf a') hr rfl)
      (fun a' k r hr => hw1 a' a k c r q hr hq)
      (ht1 a c q hq)
  -- second layer: the packed first layer is a packing of the plain one, by h1
  have h2 : ∀ (a : Fin 5) (c : Fin 50) (q : Fin 250), q.val = a.val * 50 + c.val →
      hidden (hidden X w1 (row t1)) w2 (row t2) (ix2 i q)
        = hidden (hidden A W1 b1) W2 b2 (ix2 (rowOf a) c) := fun a c q hq =>
    hidden_packed (P := 5) (K := 50) (hidden A W1 b1) W2 b2 (hidden X w1 (row t1)) w2 t2 i a c q (rowOf a) rowOf rfl
      (fun a' k r hr => h1 a' k r hr)
      (fun a' k r hr => hw2 a' a k c r q hr hq)
      (ht2 a c q hq)
  -- third layer: one output per block, so column j of the packed score is the edge's one score
  have h3 : dense (hidden (hidden X w1 (row t1)) w2 (row t2)) w3 (row t3) i j
      = dense (hidden (hidden A W1 b1) W2 b2) W3 b3 e (0 : Fin 1) :=
    dense_packed (P := 5) (K := 50) (hidden (hidden A W1 b1) W2 b2) W3 b3
      (hidden (hidden X w1 (row t1)) w2 (row t2)) w3 t3 i j (0 : Fin 1) j e rowOf hej
      (fun a' k r hr => h2 a' k r hr)
      (fun a' k r hr => hw3 a' j k r j hr rfl)
      (ht3 j)
  show Ideal.logistic _ = Ideal.logistic _
  rw [h3]

end Cert.EdgeMlp.Packed
end
-- ==== Proof.Bridge.lean ====
/-
  The packed result, unpacked, is the network edge by edge.

  Entry (e, 0) of the unpacked result is entry (e / 5, e % 5) of the packed one. There the packed network is the
  logistic function of three packed layers over the packed features, the block-diagonal weights kron(I₅, W) and the
  tiled biases; since packed feature (i, a·10 + k) is feature (5i + a, k), block (a, j) of kron(I₅, W) is [a = j]·W and
  the tiled bias repeats b, every packed layer at (i, j·C + c) is the plain layer at (5i + j, c): the result for edge
  5·(e / 5) + e % 5 = e.
-/
import proofs.«129136_j10917806866765_2_alg».proof.Proof.Blocks
import proofs.«129136_j10917806866765_2_alg».proof.Proof.HostLayout
import proofs.«129136_j10917806866765_2_alg».proof.Proof.Packed

noncomputable section

namespace Cert.KernelIdeal.Bridge

open Idealize.ShloMosaic Idealize.ShloMosaic.ValueIdx
open Cert.KernelIdeal Cert.KernelIdeal.HostLayout Cert.KernelIdeal.BlockValue Cert.EdgeMlp

variable [Facts₀]

theorem kernel_value (A : FVec Ideal S3200000x10 .f32) (W1 : FVec Ideal S10x50 .f32) (b1 : FVec Ideal S50 .f32)
    (W2 : FVec Ideal S50x50 .f32) (b2 : FVec Ideal S50 .f32) (W3 : FVec Ideal S50x1 .f32) (b3 : FVec Ideal S1 .f32) :
    unpack (packedOut (pack A) (kron1 eye W1) (tile50 b1) (kron2 eye W2) (tile50 b2) (kron3 eye W3) (tile1 b3))
      = Cert.EdgeMlp.result A W1 b1 W2 b2 W3 b3 := by
  funext i
  obtain ⟨e, u, rfl⟩ : ∃ (e : Fin 3200000) (u : Fin 1), i = ix2 e u := ⟨i 0, i 1, eq_ix2 i⟩
  obtain rfl : u = 0 := Subsingleton.elim _ _
  have he5 : e.val / 5 < 640000 := by have := e.isLt; omega
  have hm5 : e.val % 5 < 5 := Nat.mod_lt _ (by decide)
  have hsplit : e.val = 5 * (e.val / 5) + e.val % 5 := by omega
  rw [unpack_apply _ ⟨e.val / 5, he5⟩ ⟨e.val % 5, hm5⟩ e hsplit]
  exact Cert.EdgeMlp.Packed.packed_network A W1 b1 W2 b2 W3 b3
    (pack A) (kron1 eye W1) (tile50 b1) (kron2 eye W2) (tile50 b2) (kron3 eye W3) (tile1 b3)
    (fun i a k r e hr he => pack_apply A i a k r e hr he)
    (fun a j k c r q hr hq => by rw [kron1_apply eye W1 a j k c r q hr hq, eye_apply])
    (fun j c q hq => tile50_apply b1 j c q hq)
    (fun a j k c r q hr hq => by rw [kron2_apply eye W2 a j k c r q hr hq, eye_apply])
    (fun j c q hq => tile50_apply b2 j c q hq)
    (fun a j k r q hr hq => by rw [kron3_apply eye W3 a j k r q hr hq, eye_apply])
    (fun q => tile1_apply b3 q)
    ⟨e.val / 5, he5⟩ ⟨e.val % 5, hm5⟩ e hsplit

end Cert.KernelIdeal.Bridge

end
-- ==== Proof.HostValues.lean ====
import proofs.«129136_j10917806866765_2_alg».proof.Proof.Gen.KernelIdeal.Frame
import proofs.«129136_j10917806866765_2_alg».proof.Proof.HostLayout
import proofs.«129136_j10917806866765_2_alg».proof.Proof.Gen.ReferenceIdeal.Read
import Idealize.ShloMosaic.Lib.StableHlo.Run
import Idealize.ShloMosaic.Lib.Pipeline.Value

set_option maxRecDepth 16384
set_option maxHeartbeats 1000000

noncomputable section

namespace Cert.KernelIdeal.HostValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.KernelIdeal.HostLayout

variable (m : (ℓ : Loc nD τ sig) → Buf (Elt Ideal) ℓ)

/-! # What the host operations leave for the region, and what they make of its result

Before the region the host computes, from the eight argument arrays, the seven arrays the region reads: the packed edge
features (for every edge the feature rows of its two endpoints side by side, five edges to a row), the three
block-diagonal weight matrices `I₅ ⊗ W` and the three bias rows repeated five times. After the region one host operation
re-reads the 640,000×5 result as 3,200,000×1. Each of these arrays is a composition of pure operations of the
arguments; here each is identified with the corresponding named composition, whose entries are read elsewhere.
All at the exact reading of floats. -/

/-- The index column of one endpoint: a node number below zero is moved up by the number of nodes (100000), and the
    numbers are laid out as a column. -/
def endpointCol [Facts₀] (v : IVec S3200000 32) : IVec S3200000x1 32 :=
  broadcastInDim S3200000x1 ![0] Facts₀.bcast_S3200000_S3200000x1_0
    (select (cmpi .slt v (broadcastInDim S3200000 ![] Facts₀.bcast_S_S3200000 (constantI S_ 32 0#32)))
      (addi v (broadcastInDim S3200000 ![] Facts₀.bcast_S_S3200000 (constantI S_ 32 100000#32))) v)

/-- The edge features: for every edge the feature row of its first endpoint beside that of its second. -/
def edgeFeatures [Facts₀] (x0 : FVec Ideal S100000x5 .f32) (x1 : IVec S2x3200000 32) : FVec Ideal S3200000x10 .f32 :=
  concatenate S3200000x10 1
    [⟨S3200000x5, Host.gather gather_S100000x5_S3200000x1_S3200000x5_1_0_n_n_0_1_15 x0
        (endpointCol (shapeCast S3200000 (extractStridedSlice S1x3200000 ![0, 0] x1 Facts₀.slices_S2x3200000_S1x3200000_0_0)
          Facts₀.shapeCasts_S1x3200000_S3200000))⟩,
     ⟨S3200000x5, Host.gather gather_S100000x5_S3200000x1_S3200000x5_1_0_n_n_0_1_15 x0
        (endpointCol (shapeCast S3200000 (extractStridedSlice S1x3200000 ![1, 0] x1 Facts₀.slices_S2x3200000_S1x3200000_1_0)
          Facts₀.shapeCasts_S1x3200000_S3200000))⟩]
    Facts₀.concatenates_S3200000x5_S3200000x5_S3200000x10_d1

/-- The edge features are the reference program's: the same operations with the same parameters. -/
theorem edgeFeatures_eq_ref (x0 : FVec Ideal S100000x5 .f32) (x1 : IVec S2x3200000 32) :
    edgeFeatures x0 x1 = Cert.ReferenceIdeal.Read.val_main_v18 (F := Ideal) x0 x1 := rfl

/-- The region's first input as the region finds it: the edge features, five edges to a row. -/
theorem V_v20 (c : Dev nD) : (V m c main_v20 : S640000x50.Idx → EReal)
    = pack (edgeFeatures (m ((c : Thread nD τ).loc main_arg0)) (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The first layer's weights as the region finds them: `I₅ ⊗ W₁`. -/
theorem V_v27 (c : Dev nD) : (V m c main_v27 : S50x250.Idx → EReal) = kron1 eye (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The first layer's bias as the region finds it: repeated five times. -/
theorem V_v45 (c : Dev nD) : (V m c main_v45 : S1x250.Idx → EReal) = tile50 (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second layer's weights as the region finds them: `I₅ ⊗ W₂`. -/
theorem V_v34 (c : Dev nD) : (V m c main_v34 : S250x250.Idx → EReal) = kron2 eye (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second layer's bias as the region finds it: repeated five times. -/
theorem V_v49 (c : Dev nD) : (V m c main_v49 : S1x250.Idx → EReal) = tile50 (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The last layer's weights as the region finds them: `I₅ ⊗ W₃`. -/
theorem V_v41 (c : Dev nD) : (V m c main_v41 : S250x5.Idx → EReal) = kron3 eye (m ((c : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The last layer's bias as the region finds it: repeated five times. -/
theorem V_v53 (c : Dev nD) : (V m c main_v53 : S1x5.Idx → EReal) = tile1 (m ((c : Thread nD τ).loc main_arg7)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- After the region one host operation re-reads the region's 640,000×5 result, five rows to a row, as 3,200,000×1. -/
theorem tail_v55 (c : Dev nD) :
    (Pipeline.afterTail₀ cfgs (dats m) 0 (V0 m) [hostOps1] c main_v55 : S3200000x1.Idx → EReal)
      = unpack ((dats m 0 c).arrAt 7 cfg0.N) := by
  unfold Pipeline.afterTail₀
  show StableHlo.after hostOps1 _ (Proc.devRef .tc main_v55) = _
  after_results
  -- the operand is the region's output array, which the region leaves at its final contents
  have h := Pipeline.withArrays_arr spec0 launch0.win.arr_inj c (V0 m c) (fun w => (dats m 0 c).arrAt w cfg0.N) 7
  exact congrArg unpack h

end Cert.KernelIdeal.HostValues
-- ==== Proof.KernelRun.lean ====
/-
  The idealized kernel's run, with its result named.

  After the region the result buffer holds the unpacked packed network of the arrays the host lines computed from the
  arguments; those arrays are the packed features, the block-diagonal weights and the tiled biases, so the result is
  the network of Spec.lean on the edge-feature array, edge by edge, and the arguments end unchanged.
-/
import proofs.«129136_j10917806866765_2_alg».proof.Proof.Gen.KernelIdeal.Frame
import proofs.«129136_j10917806866765_2_alg».proof.Proof.Blocks
import proofs.«129136_j10917806866765_2_alg».proof.Proof.Bridge
import proofs.«129136_j10917806866765_2_alg».proof.Proof.HostValues

set_option maxRecDepth 16384

noncomputable section

namespace Cert.KernelIdeal.RunValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- What the line after the region leaves in the result buffer: the network on the edge features, edge by edge. -/
theorem result_eq (c : Dev nD) :
    (Pipeline.afterTail₀ cfgs (dats m) 0 (V0 m) [hostOps1] c main_v55 : S3200000x1.Idx → EReal)
      = Cert.EdgeMlp.result (Cert.ReferenceIdeal.Read.val_main_v18 (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [HostValues.tail_v55, BlockValue.final, HostValues.V_v20, HostValues.V_v27, HostValues.V_v45, HostValues.V_v34,
    HostValues.V_v49, HostValues.V_v41, HostValues.V_v53, Bridge.kernel_value, HostValues.edgeFeatures_eq_ref]

/-- Every weakly fair execution terminates with the result buffer at that array and the arguments unchanged. -/
theorem run : θ_run defs (onTc (τ := τ) (main (F := Ideal))) ⟨m, fun _ => 0, ρ⟩ (fun r => ∀ c : Dev nD,
      r.2.mem ((c.tc : Thread nD τ).loc main_v55) = Cert.EdgeMlp.result (Cert.ReferenceIdeal.Read.val_main_v18 (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v55 (Pipeline.mem_restRefs_of main_v55 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KernelIdeal.RunValue

end
-- ==== Proof.lean ====
/-
  The certificate: a message-passing network over the edges of a graph, packed five edges to a row.

  For every edge the reference gathers the two endpoint rows of the node table, lays them side by side (ten numbers),
  and applies three dense layers — 10 → 50 and 50 → 50 with the positive part, 50 → 1 with the logistic function.
  The kernel computes the same numbers five edges at a time: the 3,200,000 by 10 feature array is re-read row-major
  as 640,000 by 50, each weight matrix W is replaced by the block-diagonal kron(I₅, W), each bias by its five-fold
  repetition, and a grid of 250 points runs the three matrix products on blocks of 2560 packed rows; the 640,000 by 5
  result is re-read as 3,200,000 by 1.

  On the extended reals a change of float format is the identity and a sum of products is exact, so the two agree
  entry by entry: in a packed row the sum against kron(I₅, W) at column j·C + c keeps block j only — every other term
  is a product with the zero of I₅, and zero times any extended real is zero, so the finiteness of the inputs is never
  used — and block j of packed row i is row 5i + j of the features. The modules: Spec (the network as one function),
  RefSide (the reference is that function), HostLayout and HostValues (the arrays the host lines hand the region),
  Payload and Blocks (what a grid point stores, and the result array as one function), LibBlockDiag, Packed and
  Bridge (the packed network unpacked is the network), KernelRun (the kernel's run with its result named).
  The ideal pass rewrote nothing, so the kernel's idealization is its own text read exactly.
-/
import proofs.«129136_j10917806866765_2_alg».proof.Defs
import proofs.«129136_j10917806866765_2_alg».proof.Proof.Gen.Kernel
import proofs.«129136_j10917806866765_2_alg».proof.Proof.Gen.Kernel.Skeleton
import proofs.«129136_j10917806866765_2_alg».proof.Proof.Gen.Kernel.Launch
import proofs.«129136_j10917806866765_2_alg».proof.Proof.Gen.Kernel.Points
import proofs.«129136_j10917806866765_2_alg».proof.Proof.Gen.Kernel.Frame
import proofs.«129136_j10917806866765_2_alg».proof.Proof.Gen.KernelIdeal
import proofs.«129136_j10917806866765_2_alg».proof.Proof.Gen.KernelIdeal.Skeleton
import proofs.«129136_j10917806866765_2_alg».proof.Proof.Gen.KernelIdeal.Launch
import proofs.«129136_j10917806866765_2_alg».proof.Proof.Gen.KernelIdeal.Points
import proofs.«129136_j10917806866765_2_alg».proof.Proof.Gen.KernelIdeal.Frame
import proofs.«129136_j10917806866765_2_alg».proof.Proof.Gen.ReferenceIdeal
import proofs.«129136_j10917806866765_2_alg».proof.Proof.Gen.ReferenceIdeal.Run
import proofs.«129136_j10917806866765_2_alg».proof.Proof.Gen.ReferenceIdeal.Read
import proofs.«129136_j10917806866765_2_alg».proof.Proof.Gen.Pre_finite_inputs
import proofs.«129136_j10917806866765_2_alg».proof.Proof.RefSide
import proofs.«129136_j10917806866765_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of the edge features, edge by edge. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.EdgeMlp.RefSide.ref_result,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
